-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn_part1 {F : FTy → Type} [FloatOps F] (main_v13 : IVec S_ 1) (main_v16 : IVec S32x1x1024x1024 1) : IVec S_ 1 :=
  let main_c_5 : IVec S_ 1 := constantI S_ 1 1#1
  let main_v17 : IVec S_ 1 := (fun x v => Host.reduce IntOp.andi x v reducesTo_S32x1x1024x1024_S_d0_1_2_3 h_S_) main_v16 main_c_5
  let main_v18 : IVec S_ 1 := andi main_v13 main_v17
  main_v18

def fn {F : FTy → Type} [FloatOps F] (main_arg0 : FVec F S32x1x1024x1024 .f32) (main_arg1 : FVec F S32x1x1024x1024 .f32) (main_arg2 : FVec F S32x1x1024x1024 .f32) (main_arg3 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  let main_v9 : FVec F S32x1x1024x1024 .f32 := Host.absf main_arg2
  let main_cst_2 : FVec F S_ .f32 := constant S_ .f32 0x7F800000#32
  let main_v10 : FVec F S32x1x1024x1024 .f32 := broadcastInDim S32x1x1024x1024 ![] bcast_S_S32x1x1024x1024 main_cst_2
  let main_v11 : IVec S32x1x1024x1024 1 := cmpf .olt main_v9 main_v10
  let main_c_3 : IVec S_ 1 := constantI S_ 1 1#1
  let main_v12 : IVec S_ 1 := (fun x v => Host.reduce IntOp.andi x v reducesTo_S32x1x1024x1024_S_d0_1_2_3 h_S_) main_v11 main_c_3
  let main_v13 : IVec S_ 1 := andi main_v8 main_v12
  let main_v14 : FVec F S32x1x1024x1024 .f32 := Host.absf main_arg3
  let main_cst_4 : FVec F S_ .f32 := constant S_ .f32 0x7F800000#32
  let main_v15 : FVec F S32x1x1024x1024 .f32 := broadcastInDim S32x1x1024x1024 ![] bcast_S_S32x1x1024x1024 main_cst_4
  let main_v16 : IVec S32x1x1024x1024 1 := cmpf .olt main_v14 main_v15
  fn_part1 (F := F) main_v13 main_v16
-- ==== Kernel.lean ====
abbrev S32x1x1024x1024 : Shape := ⟨4, ![32, 1, 1024, 1024]⟩
abbrev S1x1x1024x1024 : Shape := ⟨4, ![1, 1, 1024, 1024]⟩
abbrev S1x1024 : Shape := ⟨2, ![1, 1024]⟩
abbrev S1x1x128x1024 : Shape := ⟨4, ![1, 1, 128, 1024]⟩
abbrev S128x1024 : Shape := ⟨2, ![128, 1024]⟩
abbrev S1x1x1x1024 : Shape := ⟨4, ![1, 1, 1, 1024]⟩
abbrev S127x1024 : Shape := ⟨2, ![127, 1024]⟩
abbrev S128x1 : Shape := ⟨2, ![128, 1]⟩
abbrev S128x1023 : Shape := ⟨2, ![128, 1023]⟩

abbrev nBuf : Space → Nat
  | .hbm => 5
  | .vmem => 6
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x1024x1024, .f32⟩
  | .hbm, ⟨3, _⟩ => ⟨S32x1x1024x1024, .f32⟩
  | .hbm, ⟨4, _⟩ => ⟨S32x1x1024x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1x1024x1024_S1x1x128x1024_0_0_0_0 : ∀ a, (![0, 0, 0, 0] : Fin 4 → Nat) a + S1x1x128x1024.size a ≤ S1x1x1024x1024.size a
  h_S1x1x128x1024 : 0 < S1x1x128x1024.numel
  shapeCasts_S1x1x128x1024_S128x1024 : S1x1x128x1024.ShapeCasts S128x1024
  inb_S1x1x1024x1024_S1x1x1x1024_0_0_128_0 : ∀ a, (![0, 0, 128, 0] : Fin 4 → Nat) a + S1x1x1x1024.size a ≤ S1x1x1024x1024.size a
  h_S1x1x1x1024 : 0 < S1x1x1x1024.numel
  shapeCasts_S1x1x1x1024_S1x1024 : S1x1x1x1024.ShapeCasts S1x1024
  slices_S128x1024_o0_0_S127x1024 : S128x1024.Slices ![0, 0] S127x1024
  concatenates_S1x1024_S127x1024_S128x1024_d0 : Shape.Concatenates [S1x1024, S127x1024] S128x1024 0
  slices_S128x1024_o1_0_S127x1024 : S128x1024.Slices ![1, 0] S127x1024
  concatenates_S127x1024_S1x1024_S128x1024_d0 : Shape.Concatenates [S127x1024, S1x1024] S128x1024 0
  slices_S128x1024_o0_0_S128x1023 : S128x1024.Slices ![0, 0] S128x1023
  concatenates_S128x1_S128x1023_S128x1024_d1 : Shape.Concatenates [S128x1, S128x1023] S128x1024 1
  slices_S128x1024_o0_1_S128x1023 : S128x1024.Slices ![0, 1] S128x1023
  concatenates_S128x1023_S128x1_S128x1024_d1 : Shape.Concatenates [S128x1023, S128x1] S128x1024 1
  slices_S128x1024_o0_1_S128x1 : S128x1024.Slices ![0, 1] S128x1
  iota_S128x1024_d1_w32 : S128x1024.Iotas .tc 32 [1]
  slices_S128x1024_o1_0_S1x1024 : S128x1024.Slices ![1, 0] S1x1024
  shapeCasts_S128x1024_S1x1x128x1024 : S128x1024.ShapeCasts S1x1x128x1024
  inb_S1x1x1024x1024_S1x1x128x1024_0_0_128_0 : ∀ a, (![0, 0, 128, 0] : Fin 4 → Nat) a + S1x1x128x1024.size a ≤ S1x1x1024x1024.size a
  inb_S1x1x1024x1024_S1x1x1x1024_0_0_127_0 : ∀ a, (![0, 0, 127, 0] : Fin 4 → Nat) a + S1x1x1x1024.size a ≤ S1x1x1024x1024.size a
  inb_S1x1x1024x1024_S1x1x1x1024_0_0_256_0 : ∀ a, (![0, 0, 256, 0] : Fin 4 → Nat) a + S1x1x1x1024.size a ≤ S1x1x1024x1024.size a
  inb_S1x1x1024x1024_S1x1x128x1024_0_0_256_0 : ∀ a, (![0, 0, 256, 0] : Fin 4 → Nat) a + S1x1x128x1024.size a ≤ S1x1x1024x1024.size a
  inb_S1x1x1024x1024_S1x1x1x1024_0_0_255_0 : ∀ a, (![0, 0, 255, 0] : Fin 4 → Nat) a + S1x1x1x1024.size a ≤ S1x1x1024x1024.size a
  inb_S1x1x1024x1024_S1x1x1x1024_0_0_384_0 : ∀ a, (![0, 0, 384, 0] : Fin 4 → Nat) a + S1x1x1x1024.size a ≤ S1x1x1024x1024.size a
  inb_S1x1x1024x1024_S1x1x128x1024_0_0_384_0 : ∀ a, (![0, 0, 384, 0] : Fin 4 → Nat) a + S1x1x128x1024.size a ≤ S1x1x1024x1024.size a
  inb_S1x1x1024x1024_S1x1x1x1024_0_0_383_0 : ∀ a, (![0, 0, 383, 0] : Fin 4 → Nat) a + S1x1x1x1024.size a ≤ S1x1x1024x1024.size a
  inb_S1x1x1024x1024_S1x1x1x1024_0_0_512_0 : ∀ a, (![0, 0, 512, 0] : Fin 4 → Nat) a + S1x1x1x1024.size a ≤ S1x1x1024x1024.size a
  inb_S1x1x1024x1024_S1x1x128x1024_0_0_512_0 : ∀ a, (![0, 0, 512, 0] : Fin 4 → Nat) a + S1x1x128x1024.size a ≤ S1x1x1024x1024.size a
  inb_S1x1x1024x1024_S1x1x1x1024_0_0_511_0 : ∀ a, (![0, 0, 511, 0] : Fin 4 → Nat) a + S1x1x1x1024.size a ≤ S1x1x1024x1024.size a
  inb_S1x1x1024x1024_S1x1x1x1024_0_0_640_0 : ∀ a, (![0, 0, 640, 0] : Fin 4 → Nat) a + S1x1x1x1024.size a ≤ S1x1x1024x1024.size a
  inb_S1x1x1024x1024_S1x1x128x1024_0_0_640_0 : ∀ a, (![0, 0, 640, 0] : Fin 4 → Nat) a + S1x1x128x1024.size a ≤ S1x1x1024x1024.size a
  inb_S1x1x1024x1024_S1x1x1x1024_0_0_639_0 : ∀ a, (![0, 0, 639, 0] : Fin 4 → Nat) a + S1x1x1x1024.size a ≤ S1x1x1024x1024.size a
  inb_S1x1x1024x1024_S1x1x1x1024_0_0_768_0 : ∀ a, (![0, 0, 768, 0] : Fin 4 → Nat) a + S1x1x1x1024.size a ≤ S1x1x1024x1024.size a
  inb_S1x1x1024x1024_S1x1x128x1024_0_0_768_0 : ∀ a, (![0, 0, 768, 0] : Fin 4 → Nat) a + S1x1x128x1024.size a ≤ S1x1x1024x1024.size a
  inb_S1x1x1024x1024_S1x1x1x1024_0_0_767_0 : ∀ a, (![0, 0, 767, 0] : Fin 4 → Nat) a + S1x1x1x1024.size a ≤ S1x1x1024x1024.size a
  inb_S1x1x1024x1024_S1x1x1x1024_0_0_896_0 : ∀ a, (![0, 0, 896, 0] : Fin 4 → Nat) a + S1x1x1x1024.size a ≤ S1x1x1024x1024.size a
  inb_S1x1x1024x1024_S1x1x128x1024_0_0_896_0 : ∀ a, (![0, 0, 896, 0] : Fin 4 → Nat) a + S1x1x128x1024.size a ≤ S1x1x1024x1024.size a
  inb_S1x1x1024x1024_S1x1x1x1024_0_0_895_0 : ∀ a, (![0, 0, 895, 0] : Fin 4 → Nat) a + S1x1x1x1024.size a ≤ S1x1x1024x1024.size a
  slices_S128x1024_o126_0_S1x1024 : S128x1024.Slices ![126, 0] S1x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x1x1024x1024.size a
  hwx0_1 : ∀ i : grid0.Coords, EltTy.bits .f32 = 32 ∨ (Rect.block (s := S32x1x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x1024.size a ≤ S32x1x1024x1024.size a
  hwx0_2 : ∀ i : grid0.Coords, EltTy.bits .f32 = 32 ∨ (Rect.block (s := S32x1x1024x1024) S1x1x1024x1024.size (cc0_transform_2 i) (hinb0_2 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1x1026x1026 : Shape := ⟨4, ![32, 1, 1026, 1026]⟩
abbrev S1 : Shape := ⟨1, ![1]⟩
abbrev S32x1x1024 : Shape := ⟨3, ![32, 1, 1024]⟩
abbrev S32x1x1x1024 : Shape := ⟨4, ![32, 1, 1, 1024]⟩
abbrev S32x1x1024x1 : Shape := ⟨4, ![32, 1, 1024, 1]⟩

abbrev nBuf : Space → Nat
  | .hbm => 41
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x1024x1024, .f32⟩
  | .hbm, ⟨3, _⟩ => ⟨S32x1x1024x1024, .f32⟩
  | .hbm, ⟨4, _⟩ => ⟨S_, .i32⟩
  | .hbm, ⟨5, _⟩ => ⟨S_, .f32⟩
  | .hbm, ⟨6, _⟩ => ⟨S32x1x1026x1026, .f32⟩
  | .hbm, ⟨7, _⟩ => ⟨S32x1x1024x1024, .f32⟩
  | .hbm, ⟨8, _⟩ => ⟨S32x1x1024x1024, .f32⟩
  | .hbm, ⟨9, _⟩ => ⟨S32x1x1024x1024, .f32⟩
  | .hbm, ⟨10, _⟩ => ⟨S32x1x1024x1024, .f32⟩
  | .hbm, ⟨11, _⟩ => ⟨S32x1x1024x1024, .f32⟩
  | .hbm, ⟨12, _⟩ => ⟨S32x1x1024x1024, .f32⟩
  | .hbm, ⟨13, _⟩ => ⟨S32x1x1024x1024, .f32⟩
  | .hbm, ⟨14, _⟩ => ⟨S_, .f32⟩
  | .hbm, ⟨15, _⟩ => ⟨S32x1x1024x1024, .f32⟩
  | .hbm, ⟨16, _⟩ => ⟨S32x1x1024x1024, .f32⟩
  | .hbm, ⟨17, _⟩ => ⟨S_, .f32⟩
  | .hbm, ⟨18, _⟩ => ⟨S32x1x1024x1024, .f32⟩
  | .hbm, ⟨19, _⟩ => ⟨S32x1x1024x1024, .f32⟩
  | .hbm, ⟨20, _⟩ => ⟨S32x1x1024x1024, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S32x1x1024, .f32⟩
  | .hbm, ⟨25, _⟩ => ⟨S32x1x1024x1024, .f32⟩
  | .hbm, ⟨26, _⟩ => ⟨S32x1x1x1024, .f32⟩
  | .hbm, ⟨27, _⟩ => ⟨S32x1x1024, .f32⟩
  | .hbm, ⟨28, _⟩ => ⟨S_, .i32⟩
  | .hbm, ⟨29, _⟩ => ⟨S1, .i32⟩
  | .hbm, ⟨30, _⟩ => ⟨S32x1x1024x1024, .f32⟩
  | .hbm, ⟨31, _⟩ => ⟨S32x1x1024x1, .f32⟩
  | .hbm, ⟨32, _⟩ => ⟨S32x1x1024, .f32⟩
  | .hbm, ⟨33, _⟩ => ⟨S_, .i32⟩
  | .hbm, ⟨34, _⟩ => ⟨S1, .i32⟩
  | .hbm, ⟨35, _⟩ => ⟨S32x1x1024x1024, .f32⟩
  | .hbm, ⟨36, _⟩ => ⟨S32x1x1x1024, .f32⟩
  | .hbm, ⟨37, _⟩ => ⟨S32x1x1024, .f32⟩
  | .hbm, ⟨38, _⟩ => ⟨S_, .i32⟩
  | .hbm, ⟨39, _⟩ => ⟨S1, .i32⟩
  | .hbm, ⟨40, _⟩ => ⟨S32x1x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  pads_S32x1x1024x1024_S32x1x1026x1026_000_000_110_110 : S32x1x1024x1024.Pads (![0, 0, 1, 1] : Fin 4 → Nat) ![0, 0, 1, 1] ![0, 0, 0, 0] S32x1x1026x1026
  h_S_ : 0 < S_.numel
  slices_S32x1x1026x1026_S32x1x1024x1024_0_0_0_1 : S32x1x1026x1026.Slices ![0, 0, 0, 1] S32x1x1024x1024
  slices_S32x1x1026x1026_S32x1x1024x1024_0_0_2_1 : S32x1x1026x1026.Slices ![0, 0, 2, 1] S32x1x1024x1024
  slices_S32x1x1026x1026_S32x1x1024x1024_0_0_1_0 : S32x1x1026x1026.Slices ![0, 0, 1, 0] S32x1x1024x1024
  slices_S32x1x1026x1026_S32x1x1024x1024_0_0_1_2 : S32x1x1026x1026.Slices ![0, 0, 1, 2] S32x1x1024x1024
  bcast_S_S32x1x1024x1024 : S_.BroadcastsInDim S32x1x1024x1024 (![] : Fin 0 → Fin S32x1x1024x1024.rank)
  bcast_S_S1 : S_.BroadcastsInDim S1 (![] : Fin 0 → Fin S1.rank)
  bcast_S_S32x1x1024 : S_.BroadcastsInDim S32x1x1024 (![] : Fin 0 → Fin S32x1x1024.rank)
  slices_S32x1x1024x1024_S32x1x1x1024_0_0_1_0 : S32x1x1024x1024.Slices ![0, 0, 1, 0] S32x1x1x1024
  shapeCasts_S32x1x1x1024_S32x1x1024 : S32x1x1x1024.ShapeCasts S32x1x1024
  slices_S32x1x1024x1024_S32x1x1024x1_0_0_0_1 : S32x1x1024x1024.Slices ![0, 0, 0, 1] S32x1x1024x1
  shapeCasts_S32x1x1024x1_S32x1x1024 : S32x1x1024x1.ShapeCasts S32x1x1024
  slices_S32x1x1024x1024_S32x1x1x1024_0_0_1022_0 : S32x1x1024x1024.Slices ![0, 0, 1022, 0] S32x1x1x1024
  scatter_S32x1x1024x1024_S1_S32x1x1024_012_3_3_0_wf : ScatterDims.WF S32x1x1024x1024 S1 S32x1x1024 [0, 1, 2] [3] [3] 0
  scatter_S32x1x1024x1024_S1_S32x1x1024_012_2_2_0_wf : ScatterDims.WF S32x1x1024x1024 S1 S32x1x1024 [0, 1, 2] [2] [2] 0

variable [Facts₀]

def scatter_S32x1x1024x1024_S1_S32x1x1024_012_3_3_0 : ScatterDims S32x1x1024x1024 S1 S32x1x1024 where
  updateWindowDims := [0, 1, 2]
  insertedWindowDims := [3]
  scatterDimsToOperandDims := [3]
  indexVectorDim := 0
  wf := scatter_S32x1x1024x1024_S1_S32x1x1024_012_3_3_0_wf
def scatter_S32x1x1024x1024_S1_S32x1x1024_012_2_2_0 : ScatterDims S32x1x1024x1024 S1 S32x1x1024 where
  updateWindowDims := [0, 1, 2]
  insertedWindowDims := [2]
  scatterDimsToOperandDims := [2]
  indexVectorDim := 0
  wf := scatter_S32x1x1024x1024_S1_S32x1x1024_012_2_2_0_wf

class Facts : Prop extends Facts₀ where

variable [Facts]
-- ==== Proof.Stencil.lean ====
/-
  One Jacobi step on a stack of 1024 x 1024 planes, written once over natural-number coordinates.

  A plane is read as a total function of two naturals that is zero outside the plane; giving it a border of zeros one
  entry wide turns the four neighbours of an entry into four plain reads.  The step is
      q * (((up + down) + left) + right) - s * f
  and four boundary rules follow it: the last column is set to zero, row 0 copies row 1, column 0 copies column 1 and
  the last row copies the row above it.  Each rule rewrites whole rows or whole columns, which is why the column copy
  may be done first: both orders give the same plane (order_eq).
-/
import Idealize.ShloMosaic.PureOps.Ideal
import Idealize.ShloMosaic.Lib.ValueIdx

noncomputable section

namespace Cert.Jacobi

open Idealize.ShloMosaic Idealize.ShloMosaic.ValueIdx

/-- The quarter, as the word both programs carry. -/
abbrev quarter : EReal := Ideal.ofBits .f32 0x3E800000#32
/-- The scale h * h / 4 = 2 ^ (-22), as the word both programs carry. -/
abbrev scale : EReal := Ideal.ofBits .f32 0x34800000#32

/-- Plane b of a stack as a total function of a row and a column: zero outside the 1024 x 1024 plane. -/
def plane {n : ℕ} (X : (⟨4, ![n, 1, 1024, 1024]⟩ : Shape).Idx → EReal) (b : Fin n) (r c : ℕ) : EReal :=
  if h : r < 1024 ∧ c < 1024 then X (ix4 b (0 : Fin 1) (⟨r, h.1⟩ : Fin 1024) (⟨c, h.2⟩ : Fin 1024)) else 0

/-- A plane with a border of zeros one entry wide: entry (r, c) of the bordered plane is entry (r - 1, c - 1) of the
    plane. -/
def bordered (P : ℕ → ℕ → EReal) (r c : ℕ) : EReal := if 1 ≤ r ∧ 1 ≤ c then P (r - 1) (c - 1) else 0

/-- The step at entry (r, c), over the bordered plane A: the four neighbours of (r, c) sit at (r, c+1), (r+2, c+1),
    (r+1, c) and (r+1, c+2) there. -/
def step (q s : EReal) (A Fm : ℕ → ℕ → EReal) (r c : ℕ) : EReal :=
  q * (((A r (c + 1) + A (r + 2) (c + 1)) + A (r + 1) c) + A (r + 1) (c + 2)) - s * Fm r c

/-- The last column set to zero. -/
def zeroLastCol (W : ℕ → ℕ → EReal) (r c : ℕ) : EReal := if c = 1023 then 0 else W r c
/-- Row 0 copies row 1. -/
def copyTop (W : ℕ → ℕ → EReal) (r c : ℕ) : EReal := if r = 0 then W 1 c else W r c
/-- Column 0 copies column 1. -/
def copyLeft (W : ℕ → ℕ → EReal) (r c : ℕ) : EReal := if c = 0 then W r 1 else W r c
/-- The last row copies the row above it. -/
def copyBottom (W : ℕ → ℕ → EReal) (r c : ℕ) : EReal := if r = 1023 then W 1022 c else W r c

/-- The four boundary rules in the order zero-column, top, left, bottom. -/
def edgeRules (W : ℕ → ℕ → EReal) : ℕ → ℕ → EReal := copyBottom (copyLeft (copyTop (zeroLastCol W)))

/-- The same rules with the column copy done first. -/
def edgeRulesLeftFirst (W : ℕ → ℕ → EReal) : ℕ → ℕ → EReal := copyBottom (copyTop (zeroLastCol (copyLeft W)))

/-- Copying column 1 into column 0 before zeroing the last column and copying the rows gives the same plane as doing it
    between the two row copies: the row copies move whole rows, so they commute with a rule that acts on columns, and
    column 0 is never the zeroed column. -/
theorem order_eq (W : ℕ → ℕ → EReal) (r c : ℕ) : edgeRulesLeftFirst W r c = edgeRules W r c := by
  simp only [edgeRulesLeftFirst, edgeRules, copyBottom, copyLeft, copyTop, zeroLastCol]
  split_ifs <;> first | rfl | omega

/-- Away from the first and last rows the row copies do nothing. -/
theorem edgeRulesLeftFirst_mid (W : ℕ → ℕ → EReal) (r c : ℕ) (h0 : r ≠ 0) (h1 : r ≠ 1023) :
    edgeRulesLeftFirst W r c = zeroLastCol (copyLeft W) r c := by
  simp only [edgeRulesLeftFirst, copyBottom, copyTop]
  rw [if_neg h1, if_neg h0]

/-- Among the first 128 rows only the copy into row 0 acts. -/
theorem edgeRulesLeftFirst_top (W : ℕ → ℕ → EReal) (r c : ℕ) (h : r < 128) :
    edgeRulesLeftFirst W r c = zeroLastCol (copyLeft W) (if r = 0 then 1 else r) c := by
  simp only [edgeRulesLeftFirst, copyBottom, copyTop]
  split_ifs <;> first | rfl | omega | contradiction

/-- Among the last 128 rows only the copy into row 1023 acts. -/
theorem edgeRulesLeftFirst_bot (W : ℕ → ℕ → EReal) (r c : ℕ) (h : 896 ≤ r) :
    edgeRulesLeftFirst W r c = zeroLastCol (copyLeft W) (if r = 1023 then 1022 else r) c := by
  simp only [edgeRulesLeftFirst, copyBottom, copyTop]
  split_ifs <;> first | rfl | omega | contradiction

/-- A bordered plane at (r' + 1, c' + 1) is the plane at (r', c'). -/
theorem bordered_eq (P : ℕ → ℕ → EReal) (r c r' c' : ℕ) (hr : r = r' + 1) (hc : c = c' + 1) : bordered P r c = P r' c' := by
  subst hr hc
  unfold bordered
  rw [if_pos ⟨by omega, by omega⟩]
  rfl

/-- Column 0 of a bordered plane is zero. -/
theorem bordered_col0 (P : ℕ → ℕ → EReal) (r : ℕ) : bordered P r 0 = 0 := by
  unfold bordered
  rw [if_neg (by omega)]

/-- Row 0 of a bordered plane is zero. -/
theorem bordered_row0 (P : ℕ → ℕ → EReal) (c : ℕ) : bordered P 0 c = 0 := by
  unfold bordered
  rw [if_neg (by omega)]

/-- A plane is zero from row 1024 on and from column 1024 on. -/
theorem plane_outside {n : ℕ} (X : (⟨4, ![n, 1, 1024, 1024]⟩ : Shape).Idx → EReal) (b : Fin n) (r c : ℕ)
    (h : 1024 ≤ r ∨ 1024 ≤ c) : plane X b r c = 0 := by
  unfold plane
  rw [dif_neg (by omega)]

/-- Column 1025 of a bordered 1024 x 1024 plane is zero. -/
theorem bordered_col1025 {n : ℕ} (X : (⟨4, ![n, 1, 1024, 1024]⟩ : Shape).Idx → EReal) (b : Fin n) (r : ℕ) :
    bordered (plane X b) r 1025 = 0 := by
  unfold bordered
  split
  · exact plane_outside X b _ _ (Or.inr (by omega))
  · rfl

/-- Row 1025 of a bordered 1024 x 1024 plane is zero. -/
theorem bordered_row1025 {n : ℕ} (X : (⟨4, ![n, 1, 1024, 1024]⟩ : Shape).Idx → EReal) (b : Fin n) (c : ℕ) :
    bordered (plane X b) 1025 c = 0 := by
  unfold bordered
  split
  · exact plane_outside X b _ _ (Or.inl (by omega))
  · rfl

/-- The step followed by the boundary rules, on every plane of a stack: the array both programs compute. -/
def result {n : ℕ} (q s : EReal) (Xf Xu : (⟨4, ![n, 1, 1024, 1024]⟩ : Shape).Idx → EReal) :
    (⟨4, ![n, 1, 1024, 1024]⟩ : Shape).Idx → EReal :=
  fun i => edgeRules (step q s (bordered (plane Xu (i 0))) (plane Xf (i 0))) (i 2).val (i 3).val

end Cert.Jacobi

end
-- ==== Proof.LibCat2.lean ====
/-
  Rank-2 arrays cut and joined, read at coordinates, for any sizes and any element type.

  * a slice of an n x w array from offsets (o0, o1), read at (p, q), is the array at (o0 + p, o1 + q);
  * two blocks stacked along the rows (n1 rows over n2 rows), read at (p, q), is the upper block at (p, q) when
    p < n1 and the lower block at (p - n1, q) otherwise;
  * two blocks set side by side along the columns (w1 columns, then w2), read at (p, q), is the left block at (p, q)
    when q < w1 and the right block at (p, q - w1) otherwise.
-/
import Idealize.ShloMosaic.Lib.Pipeline.Value
import Idealize.ShloMosaic.Lib.ValueIdx

namespace Cert.LibCat2

open Idealize.ShloMosaic Idealize.ShloMosaic.ValueIdx

variable {α : Type}

/-- A slice from offsets (o0, o1) read at (p, q) is the array at (o0 + p, o1 + q). -/
theorem slice_apply {n w n' w' : ℕ} (o0 o1 : ℕ) (x : (⟨2, ![n, w]⟩ : Shape).Idx → α)
    (h : (⟨2, ![n, w]⟩ : Shape).Slices ![o0, o1] (⟨2, ![n', w']⟩ : Shape)) (p : Fin n') (q : Fin w')
    (hp : o0 + p.val < n) (hq : o1 + q.val < w) :
    extractStridedSlice (⟨2, ![n', w']⟩ : Shape) ![o0, o1] x h (ix2 p q) = x (ix2 (⟨o0 + p.val, hp⟩ : Fin n) (⟨o1 + q.val, hq⟩ : Fin w)) :=
  extractStridedSlice_apply ![o0, o1] x h (ix2 p q) (ix2 (⟨o0 + p.val, hp⟩ : Fin n) (⟨o1 + q.val, hq⟩ : Fin w))
    (fun a => match a with
      | ⟨0, _⟩ => rfl
      | ⟨1, _⟩ => rfl)

/-- Two blocks stacked along the rows, read at (p, q): the upper block when p is one of its rows, else the lower block
    at row p - n1. -/
theorem rows_apply {n1 n2 n w : ℕ} (hn : n = n1 + n2) (x1 : (⟨2, ![n1, w]⟩ : Shape).Idx → α) (x2 : (⟨2, ![n2, w]⟩ : Shape).Idx → α)
    (h : Shape.Concatenates [(⟨2, ![n1, w]⟩ : Shape), (⟨2, ![n2, w]⟩ : Shape)] (⟨2, ![n, w]⟩ : Shape) (0 : Fin 2))
    (p : Fin n) (q : Fin w) :
    concatenate (⟨2, ![n, w]⟩ : Shape) (0 : Fin 2) [⟨(⟨2, ![n1, w]⟩ : Shape), x1⟩, ⟨(⟨2, ![n2, w]⟩ : Shape), x2⟩] h (ix2 p q)
      = if hp : p.val < n1 then x1 (ix2 (⟨p.val, hp⟩ : Fin n1) q)
        else x2 (ix2 (⟨p.val - n1, by have := p.isLt; omega⟩ : Fin n2) q) := by
  split
  · rename_i hp
    exact concatenate_pair_apply_left (0 : Fin 2) x1 x2 h (ix2 p q) rfl (ix2 (⟨p.val, hp⟩ : Fin n1) q)
      (fun b => match b with
        | ⟨0, _⟩ => rfl
        | ⟨1, _⟩ => rfl)
  · rename_i hp
    exact concatenate_pair_apply_right (0 : Fin 2) x1 x2 h (ix2 p q) rfl rfl
      (ix2 (⟨p.val - n1, by have := p.isLt; omega⟩ : Fin n2) q)
      (fun b hb => match b, hb with
        | ⟨0, _⟩, hb => absurd rfl hb
        | ⟨1, _⟩, _ => rfl)
      (by show (p.val - n1) + n1 = p.val; omega)

/-- Two blocks set side by side along the columns, read at (p, q): the left block when q is one of its columns, else
    the right block at column q - w1. -/
theorem cols_apply {w1 w2 n w : ℕ} (hw : w = w1 + w2) (x1 : (⟨2, ![n, w1]⟩ : Shape).Idx → α) (x2 : (⟨2, ![n, w2]⟩ : Shape).Idx → α)
    (h : Shape.Concatenates [(⟨2, ![n, w1]⟩ : Shape), (⟨2, ![n, w2]⟩ : Shape)] (⟨2, ![n, w]⟩ : Shape) (1 : Fin 2))
    (p : Fin n) (q : Fin w) :
    concatenate (⟨2, ![n, w]⟩ : Shape) (1 : Fin 2) [⟨(⟨2, ![n, w1]⟩ : Shape), x1⟩, ⟨(⟨2, ![n, w2]⟩ : Shape), x2⟩] h (ix2 p q)
      = if hq : q.val < w1 then x1 (ix2 p (⟨q.val, hq⟩ : Fin w1))
        else x2 (ix2 p (⟨q.val - w1, by have := q.isLt; omega⟩ : Fin w2)) := by
  split
  · rename_i hq
    exact concatenate_pair_apply_left (1 : Fin 2) x1 x2 h (ix2 p q) rfl (ix2 p (⟨q.val, hq⟩ : Fin w1))
      (fun b => match b with
        | ⟨0, _⟩ => rfl
        | ⟨1, _⟩ => rfl)
  · rename_i hq
    exact concatenate_pair_apply_right (1 : Fin 2) x1 x2 h (ix2 p q) rfl rfl
      (ix2 p (⟨q.val - w1, by have := q.isLt; omega⟩ : Fin w2))
      (fun b hb => match b, hb with
        | ⟨0, _⟩, _ => rfl
        | ⟨1, _⟩, hb => absurd rfl hb)
      (by show (q.val - w1) + w1 = q.val; omega)

end Cert.LibCat2
-- ==== Proof.Strip.lean ====
/-
  One strip of 128 rows of the kernel's body, as vector operations and then read at an entry.

  A strip takes the 128 x 1024 block cur of the plane, the row above it (top), the row below it (bot) and the matching
  block fc of the source term.  The four neighbour arrays are cur moved by one row or one column, the vacated row filled
  from top or bot and the vacated column with zeros.  Read over a bordered plane A of which cur holds rows R+1 .. R+128,
  top row R and bot row R+129, the strip's entry (p, q) is the Jacobi step at (R + p, q).  The strip then copies column 1
  into column 0 and zeroes the last column; the first strip also copies its row 1 into row 0, the last strip its row 126
  into row 127.
-/
import proofs.«177645_j22479858827489_2_alg».proof.Proof.Gen.KernelIdeal.Skeleton
import proofs.«177645_j22479858827489_2_alg».proof.Proof.Stencil
import proofs.«177645_j22479858827489_2_alg».proof.Proof.LibCat2
import Idealize.ShloMosaic.PureOps.Ideal.Laws

noncomputable section

namespace Cert.KernelIdeal.Strip

open Cert.KernelIdeal Cert.KernelIdeal.Gen Idealize.ShloMosaic Idealize.ShloMosaic.ValueIdx Cert.Jacobi

variable {F : FTy → Type} [FloatOps F]

/-! ## The operations -/

/-- Up neighbours: top over rows 0 .. 126 of cur. -/
def fromAbove (top : FVec F S1x1024 .f32) (cur : FVec F S128x1024 .f32) : FVec F S128x1024 .f32 :=
  concatenate S128x1024 0 [⟨S1x1024, top⟩, ⟨S127x1024, extractStridedSlice S127x1024 ![0, 0] cur slices_S128x1024_o0_0_S127x1024⟩] concatenates_S1x1024_S127x1024_S128x1024_d0
/-- Down neighbours: rows 1 .. 127 of cur over bot. -/
def fromBelow (cur : FVec F S128x1024 .f32) (bot : FVec F S1x1024 .f32) : FVec F S128x1024 .f32 :=
  concatenate S128x1024 0 [⟨S127x1024, extractStridedSlice S127x1024 ![1, 0] cur slices_S128x1024_o1_0_S127x1024⟩, ⟨S1x1024, bot⟩] concatenates_S127x1024_S1x1024_S128x1024_d0
/-- Left neighbours: a column of z, then columns 0 .. 1022 of cur. -/
def fromLeft (z : F .f32) (cur : FVec F S128x1024 .f32) : FVec F S128x1024 .f32 :=
  concatenate S128x1024 1 [⟨S128x1, broadcast S128x1 z⟩, ⟨S128x1023, extractStridedSlice S128x1023 ![0, 0] cur slices_S128x1024_o0_0_S128x1023⟩] concatenates_S128x1_S128x1023_S128x1024_d1
/-- Right neighbours: columns 1 .. 1023 of cur, then a column of z. -/
def fromRight (z : F .f32) (cur : FVec F S128x1024 .f32) : FVec F S128x1024 .f32 :=
  concatenate S128x1024 1 [⟨S128x1023, extractStridedSlice S128x1023 ![0, 1] cur slices_S128x1024_o0_1_S128x1023⟩, ⟨S128x1, broadcast S128x1 z⟩] concatenates_S128x1023_S128x1_S128x1024_d1
/-- Column 0 replaced by column 1. -/
def colFix (v : FVec F S128x1024 .f32) : FVec F S128x1024 .f32 :=
  concatenate S128x1024 1 [⟨S128x1, extractStridedSlice S128x1 ![0, 1] v slices_S128x1024_o0_1_S128x1⟩, ⟨S128x1023, extractStridedSlice S128x1023 ![0, 1] v slices_S128x1024_o0_1_S128x1023⟩] concatenates_S128x1_S128x1023_S128x1024_d1
/-- Row 0 replaced by row 1. -/
def topFix (v : FVec F S128x1024 .f32) : FVec F S128x1024 .f32 :=
  concatenate S128x1024 0 [⟨S1x1024, extractStridedSlice S1x1024 ![1, 0] v slices_S128x1024_o1_0_S1x1024⟩, ⟨S127x1024, extractStridedSlice S127x1024 ![1, 0] v slices_S128x1024_o1_0_S127x1024⟩] concatenates_S1x1024_S127x1024_S128x1024_d0
/-- Row 127 replaced by row 126. -/
def botFix (v : FVec F S128x1024 .f32) : FVec F S128x1024 .f32 :=
  concatenate S128x1024 0 [⟨S127x1024, extractStridedSlice S127x1024 ![0, 0] v slices_S128x1024_o0_0_S127x1024⟩, ⟨S1x1024, extractStridedSlice S1x1024 ![126, 0] v slices_S128x1024_o126_0_S1x1024⟩] concatenates_S127x1024_S1x1024_S128x1024_d0
/-- The bit "column 1023". -/
def lastCol : IVec S128x1024 1 := cmpi .eq (iota .tc S128x1024 32 [1] iota_S128x1024_d1_w32) (broadcast S128x1024 1023#32)
/-- Column 1023 replaced by z. -/
def maskLast (z : F .f32) (v : FVec F S128x1024 .f32) : FVec F S128x1024 .f32 := select lastCol (broadcast S128x1024 z) v

/-- The step on a strip. -/
def inner (top : FVec F S1x1024 .f32) (cur fc : FVec F S128x1024 .f32) (bot : FVec F S1x1024 .f32) : FVec F S128x1024 .f32 :=
  subf (mulf (broadcast S128x1024 (Scalar.ofBits .f32 0x3E800000#32))
      (addf (addf (addf (fromAbove top cur) (fromBelow cur bot)) (fromLeft (Scalar.ofBits .f32 0x00000000#32) cur))
        (fromRight (Scalar.ofBits .f32 0x00000000#32) cur)))
    (mulf (broadcast S128x1024 (Scalar.ofBits .f32 0x34800000#32)) fc)

/-- The step, the column copy and the zeroed last column: what every strip computes before its row copy, if any. -/
def strip (top : FVec F S1x1024 .f32) (cur fc : FVec F S128x1024 .f32) (bot : FVec F S1x1024 .f32) : FVec F S128x1024 .f32 :=
  maskLast (Scalar.ofBits .f32 0x00000000#32) (colFix (inner top cur fc bot))

/-! ## Read at an entry -/

section Any
variable {α : Type}

theorem colFix_apply (v : FVec F S128x1024 .f32) (p : Fin 128) (q : Fin 1024) :
    colFix v (ix2 p q) = v (ix2 p (⟨if q.val = 0 then 1 else q.val, by have := q.isLt; split <;> omega⟩ : Fin 1024)) := by
  unfold colFix
  refine (Cert.LibCat2.cols_apply (w1 := 1) (w2 := 1023) rfl _ _ concatenates_S128x1_S128x1023_S128x1024_d1 p q).trans ?_
  split
  · rename_i hq
    refine (Cert.LibCat2.slice_apply 0 1 v slices_S128x1024_o0_1_S128x1 p _ (by have := p.isLt; omega) (by show 1 + q.val < 1024; omega)).trans ?_
    congr 1; funext a
    match a with
    | ⟨0, _⟩ => exact Fin.ext (by show 0 + p.val = p.val; omega)
    | ⟨1, _⟩ => exact Fin.ext (by show 1 + q.val = (if q.val = 0 then 1 else q.val); rw [if_pos (by omega)]; omega)
  · rename_i hq
    refine (Cert.LibCat2.slice_apply 0 1 v slices_S128x1024_o0_1_S128x1023 p _ (by have := p.isLt; omega) (by have := q.isLt; show 1 + (q.val - 1) < 1024; omega)).trans ?_
    congr 1; funext a
    match a with
    | ⟨0, _⟩ => exact Fin.ext (by show 0 + p.val = p.val; omega)
    | ⟨1, _⟩ => exact Fin.ext (by show 1 + (q.val - 1) = (if q.val = 0 then 1 else q.val); rw [if_neg (by omega)]; omega)

theorem topFix_apply (v : FVec F S128x1024 .f32) (p : Fin 128) (q : Fin 1024) :
    topFix v (ix2 p q) = v (ix2 (⟨if p.val = 0 then 1 else p.val, by have := p.isLt; split <;> omega⟩ : Fin 128) q) := by
  unfold topFix
  refine (Cert.LibCat2.rows_apply (n1 := 1) (n2 := 127) rfl _ _ concatenates_S1x1024_S127x1024_S128x1024_d0 p q).trans ?_
  split
  · rename_i hp
    refine (Cert.LibCat2.slice_apply 1 0 v slices_S128x1024_o1_0_S1x1024 _ q (by show 1 + p.val < 128; omega) (by have := q.isLt; omega)).trans ?_
    congr 1; funext a
    match a with
    | ⟨0, _⟩ => exact Fin.ext (by show 1 + p.val = (if p.val = 0 then 1 else p.val); rw [if_pos (by omega)]; omega)
    | ⟨1, _⟩ => exact Fin.ext (by show 0 + q.val = q.val; omega)
  · rename_i hp
    refine (Cert.LibCat2.slice_apply 1 0 v slices_S128x1024_o1_0_S127x1024 _ q (by have := p.isLt; show 1 + (p.val - 1) < 128; omega) (by have := q.isLt; omega)).trans ?_
    congr 1; funext a
    match a with
    | ⟨0, _⟩ => exact Fin.ext (by show 1 + (p.val - 1) = (if p.val = 0 then 1 else p.val); rw [if_neg (by omega)]; omega)
    | ⟨1, _⟩ => exact Fin.ext (by show 0 + q.val = q.val; omega)

theorem botFix_apply (v : FVec F S128x1024 .f32) (p : Fin 128) (q : Fin 1024) :
    botFix v (ix2 p q) = v (ix2 (⟨if p.val = 127 then 126 else p.val, by have := p.isLt; split <;> omega⟩ : Fin 128) q) := by
  unfold botFix
  refine (Cert.LibCat2.rows_apply (n1 := 127) (n2 := 1) rfl _ _ concatenates_S127x1024_S1x1024_S128x1024_d0 p q).trans ?_
  split
  · rename_i hp
    refine (Cert.LibCat2.slice_apply 0 0 v slices_S128x1024_o0_0_S127x1024 _ q (by show 0 + p.val < 128; omega) (by have := q.isLt; omega)).trans ?_
    congr 1; funext a
    match a with
    | ⟨0, _⟩ => exact Fin.ext (by show 0 + p.val = (if p.val = 127 then 126 else p.val); rw [if_neg (by omega)]; omega)
    | ⟨1, _⟩ => exact Fin.ext (by show 0 + q.val = q.val; omega)
  · rename_i hp
    refine (Cert.LibCat2.slice_apply 126 0 v slices_S128x1024_o126_0_S1x1024 _ q (by have := p.isLt; show 126 + (p.val - 127) < 128; omega) (by have := q.isLt; omega)).trans ?_
    congr 1; funext a
    match a with
    | ⟨0, _⟩ => exact Fin.ext (by have := p.isLt; show 126 + (p.val - 127) = (if p.val = 127 then 126 else p.val); rw [if_pos (by omega)]; omega)
    | ⟨1, _⟩ => exact Fin.ext (by show 0 + q.val = q.val; omega)

/-- The bit "column 1023" at an entry. -/
theorem lastCol_apply (p : Fin 128) (q : Fin 1024) : lastCol (ix2 p q) = if q.val = 1023 then 1#1 else 0#1 := by
  unfold lastCol
  show IntOp.cmpi .eq (iota .tc S128x1024 32 [1] iota_S128x1024_d1_w32 (ix2 p q)) 1023#32 = _
  rw [iota_single_apply]
  show IntOp.cmpi .eq (BitVec.ofNat 32 q.val) 1023#32 = _
  have hq := q.isLt
  show BitVec.ofBool (BitVec.ofNat 32 q.val == 1023#32) = _
  by_cases h : q.val = 1023
  · rw [if_pos h, h]; rfl
  · rw [if_neg h]
    have hne : (BitVec.ofNat 32 q.val == 1023#32) = false := by
      rw [beq_eq_false_iff_ne]
      intro e
      have e' := congrArg BitVec.toNat e
      rw [BitVec.toNat_ofNat, Nat.mod_eq_of_lt (by omega)] at e'
      exact h e'
    rw [hne]; rfl

theorem maskLast_apply (z : F .f32) (v : FVec F S128x1024 .f32) (p : Fin 128) (q : Fin 1024) :
    maskLast z v (ix2 p q) = if q.val = 1023 then z else v (ix2 p q) := by
  unfold maskLast
  rw [select_apply, lastCol_apply, broadcast_apply]
  split
  · exact select_one _ _
  · exact select_zero _ _

end Any

end Cert.KernelIdeal.Strip

end
-- ==== Proof.StripRead.lean ====
/-
  A strip read over a bordered plane, on the extended reals.

  Let A be a bordered plane (zero in its columns 0 and 1025) and Fm a plane, and let a strip hold rows R+1 .. R+128 of A in
  cur, row R in top, row R+129 in bot, and rows R .. R+127 of Fm in fc.  Then the four neighbour arrays at (p, q) are A at
  (R+p, q+1), (R+p+2, q+1), (R+p+1, q) and (R+p+1, q+2); the strip's step at (p, q) is the Jacobi step at (R+p, q); and
  after the column copy and the zeroed last column it is that step with column 0 copying column 1 and column 1023 zero.
-/
import proofs.«177645_j22479858827489_2_alg».proof.Proof.Strip

noncomputable section

namespace Cert.KernelIdeal.Strip

open Cert.KernelIdeal Cert.KernelIdeal.Gen Idealize.ShloMosaic Idealize.ShloMosaic.ValueIdx Cert.Jacobi

/-- The zero word is zero. -/
theorem zero_word : (Scalar.ofBits (F := Ideal) .f32 0x00000000#32 : Ideal .f32) = (0 : EReal) := Ideal.ofBits_zero_f32

variable (top bot : FVec Ideal S1x1024 .f32) (cur fc : FVec Ideal S128x1024 .f32) (A Fm : ℕ → ℕ → EReal) (R : ℕ)
  (hcur : ∀ (p : Fin 128) (q : Fin 1024), cur (ix2 p q) = A (R + p.val + 1) (q.val + 1))
  (htop : ∀ q : Fin 1024, top (ix2 (0 : Fin 1) q) = A R (q.val + 1))
  (hbot : ∀ q : Fin 1024, bot (ix2 (0 : Fin 1) q) = A (R + 129) (q.val + 1))
  (hfc : ∀ (p : Fin 128) (q : Fin 1024), fc (ix2 p q) = Fm (R + p.val) q.val)
  (hl : ∀ r, A r 0 = 0) (hr : ∀ r, A r 1025 = 0)

include hcur htop in
theorem fromAbove_apply (p : Fin 128) (q : Fin 1024) : fromAbove top cur (ix2 p q) = A (R + p.val) (q.val + 1) := by
  unfold fromAbove
  refine (Cert.LibCat2.rows_apply (n1 := 1) (n2 := 127) rfl _ _ concatenates_S1x1024_S127x1024_S128x1024_d0 p q).trans ?_
  split
  · rename_i hp
    rw [show (⟨p.val, hp⟩ : Fin 1) = (0 : Fin 1) from Fin.ext (by show p.val = 0; omega), htop]
    exact congrArg₂ A (by omega) rfl
  · rename_i hp
    refine (Cert.LibCat2.slice_apply 0 0 cur slices_S128x1024_o0_0_S127x1024 _ q
      (by have := p.isLt; show 0 + (p.val - 1) < 128; omega) (by have := q.isLt; omega)).trans ?_
    rw [hcur]
    exact congrArg₂ A (by show R + (0 + (p.val - 1)) + 1 = R + p.val; omega) (by show 0 + q.val + 1 = q.val + 1; omega)

include hcur hbot in
theorem fromBelow_apply (p : Fin 128) (q : Fin 1024) : fromBelow cur bot (ix2 p q) = A (R + p.val + 2) (q.val + 1) := by
  unfold fromBelow
  refine (Cert.LibCat2.rows_apply (n1 := 127) (n2 := 1) rfl _ _ concatenates_S127x1024_S1x1024_S128x1024_d0 p q).trans ?_
  split
  · rename_i hp
    refine (Cert.LibCat2.slice_apply 1 0 cur slices_S128x1024_o1_0_S127x1024 _ q
      (by show 1 + p.val < 128; omega) (by have := q.isLt; omega)).trans ?_
    rw [hcur]
    exact congrArg₂ A (by show R + (1 + p.val) + 1 = R + p.val + 2; omega) (by show 0 + q.val + 1 = q.val + 1; omega)
  · rename_i hp
    have hp' := p.isLt
    rw [show (⟨p.val - 127, by omega⟩ : Fin 1) = (0 : Fin 1) from Fin.ext (by show p.val - 127 = 0; omega), hbot]
    exact congrArg₂ A (by omega) rfl

include hcur hl in
theorem fromLeft_apply (p : Fin 128) (q : Fin 1024) :
    fromLeft (Scalar.ofBits (F := Ideal) .f32 0x00000000#32) cur (ix2 p q) = A (R + p.val + 1) q.val := by
  unfold fromLeft
  refine (Cert.LibCat2.cols_apply (w1 := 1) (w2 := 1023) rfl _ _ concatenates_S128x1_S128x1023_S128x1024_d1 p q).trans ?_
  split
  · rename_i hq
    rw [broadcast_apply, zero_word, show q.val = 0 by omega, hl]
  · rename_i hq
    refine (Cert.LibCat2.slice_apply 0 0 cur slices_S128x1024_o0_0_S128x1023 p _
      (by have := p.isLt; omega) (by have := q.isLt; show 0 + (q.val - 1) < 1024; omega)).trans ?_
    rw [hcur]
    exact congrArg₂ A (by show R + (0 + p.val) + 1 = R + p.val + 1; omega) (by show 0 + (q.val - 1) + 1 = q.val; omega)

include hcur hr in
theorem fromRight_apply (p : Fin 128) (q : Fin 1024) :
    fromRight (Scalar.ofBits (F := Ideal) .f32 0x00000000#32) cur (ix2 p q) = A (R + p.val + 1) (q.val + 2) := by
  unfold fromRight
  refine (Cert.LibCat2.cols_apply (w1 := 1023) (w2 := 1) rfl _ _ concatenates_S128x1023_S128x1_S128x1024_d1 p q).trans ?_
  split
  · rename_i hq
    refine (Cert.LibCat2.slice_apply 0 1 cur slices_S128x1024_o0_1_S128x1023 p _
      (by have := p.isLt; omega) (by show 1 + q.val < 1024; omega)).trans ?_
    rw [hcur]
    exact congrArg₂ A (by show R + (0 + p.val) + 1 = R + p.val + 1; omega) (by show 1 + q.val + 1 = q.val + 2; omega)
  · rename_i hq
    have hq' := q.isLt
    rw [broadcast_apply, zero_word, show q.val + 2 = 1025 by omega, hr]

include hcur htop hbot hfc hl hr in
/-- The strip's step at (p, q) is the Jacobi step at (R + p, q). -/
theorem inner_apply (p : Fin 128) (q : Fin 1024) :
    inner top cur fc bot (ix2 p q) = step quarter scale A Fm (R + p.val) q.val := by
  unfold inner
  rw [subf_apply, mulf_apply, mulf_apply, addf_apply, addf_apply, addf_apply, broadcast_apply, broadcast_apply,
    fromAbove_apply top cur A R hcur htop, fromBelow_apply bot cur A R hcur hbot, fromLeft_apply cur A R hcur hl,
    fromRight_apply cur A R hcur hr, hfc]
  rfl

include hcur htop hbot hfc hl hr in
/-- After the column copy and the zeroed last column. -/
theorem strip_apply (p : Fin 128) (q : Fin 1024) :
    strip top cur fc bot (ix2 p q) = zeroLastCol (copyLeft (step quarter scale A Fm)) (R + p.val) q.val := by
  unfold strip
  rw [maskLast_apply, colFix_apply, inner_apply top bot cur fc A Fm R hcur htop hbot hfc hl hr, zero_word]
  unfold zeroLastCol copyLeft
  by_cases h1 : q.val = 1023
  · rw [if_pos h1, if_pos h1]
  · rw [if_neg h1, if_neg h1]
    show step quarter scale A Fm (R + p.val) (if q.val = 0 then 1 else q.val) = _
    by_cases h0 : q.val = 0
    · rw [if_pos h0, if_pos h0]
    · rw [if_neg h0, if_neg h0]

end Cert.KernelIdeal.Strip

end
-- ==== Proof.Block.lean ====
/-
  What the kernel's body leaves in its output block, as one function of the two input blocks.

  The body handles the 1024 rows of a plane in eight strips of 128 rows.  Strip k loads rows 128k .. 128k+127 of the
  field and of the source term, the field's row above (zeros for the first strip) and the field's row below (zeros for
  the last strip), computes the step, copies column 1 into column 0, zeroes the last column, and stores the 128 rows; the
  first strip first copies its row 1 into row 0 and the last strip its row 126 into row 127.  Since the eight stored
  rectangles tile the block, the block ends holding, at (r, c), the step followed by the boundary rules with the
  column copy done first.
-/
import proofs.«177645_j22479858827489_2_alg».proof.Proof.StripRead
import proofs.«177645_j22479858827489_2_alg».proof.Proof.Gen.KernelIdeal.Frame
import Idealize.ShloMosaic.Lib.Pipeline.Value

set_option maxRecDepth 16384

noncomputable section

namespace Cert.KernelIdeal.Block

open Cert.KernelIdeal Cert.KernelIdeal.Gen Cert.KernelIdeal.Strip Idealize.ShloMosaic Idealize.ShloMosaic.ValueIdx Cert.Jacobi

/-! ## The body's payloads are strips -/

section Payloads
variable {F : FTy → Type} [FloatOps F]

/-- A loaded block of 128 rows as a 128 x 1024 array. -/
abbrev toRows (v : Vec F S1x1x128x1024 .f32) : FVec F S128x1024 .f32 := shapeCast S128x1024 v shapeCasts_S1x1x128x1024_S128x1024
/-- A loaded row as a 1 x 1024 array. -/
abbrev toRow (v : Vec F S1x1x1x1024 .f32) : FVec F S1x1024 .f32 := shapeCast S1x1024 v shapeCasts_S1x1x1x1024_S1x1024
/-- A computed 128 x 1024 array as the block of 128 rows that is stored. -/
abbrev toBlock (v : FVec F S128x1024 .f32) : FVec F S1x1x128x1024 .f32 := shapeCast S1x1x128x1024 v shapeCasts_S128x1024_S1x1x128x1024

theorem pay_first (a b : Vec F S1x1x128x1024 .f32) (d : Vec F S1x1x1x1024 .f32) :
    k0_pay4 (k0_pay3 a b d) = toBlock (topFix (strip (broadcast S1x1024 (Scalar.ofBits .f32 0x00000000#32)) (toRows a) (toRows b) (toRow d))) := rfl
theorem pay_strip1 (a b : Vec F S1x1x128x1024 .f32) (c d : Vec F S1x1x1x1024 .f32) :
    k0_pay6 (k0_pay5 a b c d) = toBlock (strip (toRow c) (toRows a) (toRows b) (toRow d)) := rfl
theorem pay_strip2 (a b : Vec F S1x1x128x1024 .f32) (c d : Vec F S1x1x1x1024 .f32) :
    k0_pay8 (k0_pay7 a b c d) = toBlock (strip (toRow c) (toRows a) (toRows b) (toRow d)) := rfl
theorem pay_strip3 (a b : Vec F S1x1x128x1024 .f32) (c d : Vec F S1x1x1x1024 .f32) :
    k0_pay10 (k0_pay9 a b c d) = toBlock (strip (toRow c) (toRows a) (toRows b) (toRow d)) := rfl
theorem pay_strip4 (a b : Vec F S1x1x128x1024 .f32) (c d : Vec F S1x1x1x1024 .f32) :
    k0_pay13 (k0_pay11 a b c d) k0_pay12 (Scalar.ofBits .f32 0x00000000#32) = toBlock (strip (toRow c) (toRows a) (toRows b) (toRow d)) := rfl
theorem pay_strip5 (a b : Vec F S1x1x128x1024 .f32) (c d : Vec F S1x1x1x1024 .f32) :
    k0_pay16 (k0_pay14 a b c d) (iota .tc S128x1024 32 [1] iota_S128x1024_d1_w32) k0_pay15 = toBlock (strip (toRow c) (toRows a) (toRows b) (toRow d)) := rfl
theorem pay_strip6 (a b : Vec F S1x1x128x1024 .f32) (c d : Vec F S1x1x1x1024 .f32) :
    k0_pay18 (k0_pay17 a b c d) (iota .tc S128x1024 32 [1] iota_S128x1024_d1_w32) = toBlock (strip (toRow c) (toRows a) (toRows b) (toRow d)) := rfl
theorem pay_last (a b : Vec F S1x1x128x1024 .f32) (c : Vec F S1x1x1x1024 .f32) :
    k0_pay1 (k0_pay19 (k0_pay2 (F := F)) a b c) k0_pay20 (Scalar.ofBits .f32 0x00000000#32)
      = toBlock (botFix (strip (toRow c) (toRows a) (toRows b) (broadcast S1x1024 (Scalar.ofBits .f32 0x00000000#32)))) := rfl

end Payloads

/-! ## Loads read as planes -/

/-- Rows R .. R+127 of a block, loaded and viewed as a 128 x 1024 array, at (p, q): the block's plane at (R + p, q). -/
theorem rows_read (x : Vec Ideal S1x1x1024x1024 .f32) (R : ℕ)
    (inb : ∀ a, (![0, 0, R, 0] : Fin 4 → ℕ) a + S1x1x128x1024.size a ≤ S1x1x1024x1024.size a) (p : Fin 128) (q : Fin 1024) :
    toRows (F := Ideal) (View.ld x (Rect.unit (s := S1x1x1024x1024) ![0, 0, R, 0] S1x1x128x1024.size inb)) (ix2 p q)
      = plane (n := 1) x (0 : Fin 1) (R + p.val) q.val := by
  have hR : R + 128 ≤ 1024 := inb 2
  have hp := p.isLt
  have hq := q.isLt
  refine (shapeCast_apply _ shapeCasts_S1x1x128x1024_S128x1024 (ix2 p q) (ix4 (0 : Fin 1) (0 : Fin 1) p q)
    (by rw [Shape.rowMajor_val_four, Shape.rowMajor_val_two]
        show ((0 * 1 + 0) * 128 + p.val) * 1024 + q.val = p.val * 1024 + q.val
        omega)).trans ?_
  unfold plane
  rw [dif_pos ⟨by omega, hq⟩]
  show x ((Rect.unit (s := S1x1x1024x1024) ![0, 0, R, 0] S1x1x128x1024.size inb).idx (ix4 (0 : Fin 1) (0 : Fin 1) p q)) = _
  congr 1
  funext a
  match a with
  | ⟨0, _⟩ => exact Fin.ext (by show 0 + 1 * 0 = 0; omega)
  | ⟨1, _⟩ => exact Fin.ext (by show 0 + 1 * 0 = 0; omega)
  | ⟨2, _⟩ => exact Fin.ext (by show R + 1 * p.val = R + p.val; omega)
  | ⟨3, _⟩ => exact Fin.ext (by show 0 + 1 * q.val = q.val; omega)

/-- Row R of a block, loaded and viewed as a 1 x 1024 array, at (0, q): the block's plane at (R, q). -/
theorem row_read (x : Vec Ideal S1x1x1024x1024 .f32) (R : ℕ)
    (inb : ∀ a, (![0, 0, R, 0] : Fin 4 → ℕ) a + S1x1x1x1024.size a ≤ S1x1x1024x1024.size a) (q : Fin 1024) :
    toRow (F := Ideal) (View.ld x (Rect.unit (s := S1x1x1024x1024) ![0, 0, R, 0] S1x1x1x1024.size inb)) (ix2 (0 : Fin 1) q)
      = plane (n := 1) x (0 : Fin 1) R q.val := by
  have hR : R + 1 ≤ 1024 := inb 2
  have hq := q.isLt
  refine (shapeCast_apply _ shapeCasts_S1x1x1x1024_S1x1024 (ix2 (0 : Fin 1) q) (ix4 (0 : Fin 1) (0 : Fin 1) (0 : Fin 1) q)
    (by rw [Shape.rowMajor_val_four, Shape.rowMajor_val_two]
        show ((0 * 1 + 0) * 1 + 0) * 1024 + q.val = 0 * 1024 + q.val
        omega)).trans ?_
  unfold plane
  rw [dif_pos ⟨by omega, hq⟩]
  show x ((Rect.unit (s := S1x1x1024x1024) ![0, 0, R, 0] S1x1x1x1024.size inb).idx (ix4 (0 : Fin 1) (0 : Fin 1) (0 : Fin 1) q)) = _
  congr 1
  funext a
  match a with
  | ⟨0, _⟩ => exact Fin.ext (by show 0 + 1 * 0 = 0; omega)
  | ⟨1, _⟩ => exact Fin.ext (by show 0 + 1 * 0 = 0; omega)
  | ⟨2, _⟩ => exact Fin.ext (by show R + 1 * 0 = R; omega)
  | ⟨3, _⟩ => exact Fin.ext (by show 0 + 1 * q.val = q.val; omega)

/-- A stored block of 128 rows at a block index is the computed array at the index's last two coordinates. -/
theorem toBlock_apply (v : FVec Ideal S128x1024 .f32) (x : S1x1x128x1024.Idx) :
    toBlock (F := Ideal) v x = v (ix2 (⟨(x 2).val, (x 2).isLt⟩ : Fin 128) (⟨(x 3).val, (x 3).isLt⟩ : Fin 1024)) := by
  have h0 : (x 0).val < 1 := (x 0).isLt
  have h1 : (x 1).val < 1 := (x 1).isLt
  exact shapeCast_apply _ shapeCasts_S128x1024_S1x1x128x1024 x _
    (by rw [Shape.rowMajor_val_four, Shape.rowMajor_val_two]
        show (x 2).val * 1024 + (x 3).val = (((x 0).val * 1 + (x 1).val) * 128 + (x 2).val) * 1024 + (x 3).val
        omega)

/-! ## The block -/

variable (x0 x1 : Vec Ideal S1x1x1024x1024 .f32)

/-- The step over the field's block x1 (bordered) and the source block x0. -/
def stepOf : ℕ → ℕ → EReal := step quarter scale (bordered (plane (n := 1) x1 (0 : Fin 1))) (plane (n := 1) x0 (0 : Fin 1))

/-- What the body leaves in the output block. -/
def blockResult : S1x1x1024x1024.Idx → EReal := fun y => edgeRulesLeftFirst (stepOf x0 x1) (y 2).val (y 3).val

/-- A strip that is neither the first nor the last: rows R .. R+127, with the row above at T = R - 1 and the row below at
    B = R + 128. -/
theorem mid_piece (R T B : ℕ)
    (inbM : ∀ a, (![0, 0, R, 0] : Fin 4 → ℕ) a + S1x1x128x1024.size a ≤ S1x1x1024x1024.size a)
    (inbT : ∀ a, (![0, 0, T, 0] : Fin 4 → ℕ) a + S1x1x1x1024.size a ≤ S1x1x1024x1024.size a)
    (inbB : ∀ a, (![0, 0, B, 0] : Fin 4 → ℕ) a + S1x1x1x1024.size a ≤ S1x1x1024x1024.size a)
    (hT : R = T + 1) (hB : B = R + 128) (hR0 : 1 ≤ R) (hR1 : R + 128 ≤ 1023) (x : S1x1x128x1024.Idx) :
    toBlock (F := Ideal) (strip
        (toRow (View.ld x1 (Rect.unit (s := S1x1x1024x1024) ![0, 0, T, 0] S1x1x1x1024.size inbT)))
        (toRows (View.ld x1 (Rect.unit (s := S1x1x1024x1024) ![0, 0, R, 0] S1x1x128x1024.size inbM)))
        (toRows (View.ld x0 (Rect.unit (s := S1x1x1024x1024) ![0, 0, R, 0] S1x1x128x1024.size inbM)))
        (toRow (View.ld x1 (Rect.unit (s := S1x1x1024x1024) ![0, 0, B, 0] S1x1x1x1024.size inbB)))) x
      = edgeRulesLeftFirst (stepOf x0 x1) (R + 1 * (x 2).val) (0 + 1 * (x 3).val) := by
  have hx2 : (x 2).val < 128 := (x 2).isLt
  have hx3 : (x 3).val < 1024 := (x 3).isLt
  rw [toBlock_apply,
    strip_apply _ _ _ _ (bordered (plane (n := 1) x1 (0 : Fin 1))) (plane (n := 1) x0 (0 : Fin 1)) R
      (fun p q => (rows_read x1 R inbM p q).trans (bordered_eq _ _ _ _ _ rfl rfl).symm)
      (fun q => (row_read x1 T inbT q).trans (bordered_eq _ _ _ _ _ hT rfl).symm)
      (fun q => (row_read x1 B inbB q).trans (bordered_eq _ _ _ _ _ (by omega) rfl).symm)
      (fun p q => rows_read x0 R inbM p q)
      (fun r => bordered_col0 _ r) (fun r => bordered_col1025 x1 _ r),
    edgeRulesLeftFirst_mid _ _ _ (by omega) (by omega)]
  exact congrArg₂ _ (by show R + (x 2).val = R + 1 * (x 2).val; omega) (by show (x 3).val = 0 + 1 * (x 3).val; omega)

/-- The first strip: rows 0 .. 127, zeros above, row 128 below, and row 0 copying row 1. -/
theorem first_piece
    (inbM : ∀ a, (![0, 0, 0, 0] : Fin 4 → ℕ) a + S1x1x128x1024.size a ≤ S1x1x1024x1024.size a)
    (inbB : ∀ a, (![0, 0, 128, 0] : Fin 4 → ℕ) a + S1x1x1x1024.size a ≤ S1x1x1024x1024.size a) (x : S1x1x128x1024.Idx) :
    toBlock (F := Ideal) (topFix (strip
        (broadcast S1x1024 (Scalar.ofBits (F := Ideal) .f32 0x00000000#32))
        (toRows (View.ld x1 (Rect.unit (s := S1x1x1024x1024) ![0, 0, 0, 0] S1x1x128x1024.size inbM)))
        (toRows (View.ld x0 (Rect.unit (s := S1x1x1024x1024) ![0, 0, 0, 0] S1x1x128x1024.size inbM)))
        (toRow (View.ld x1 (Rect.unit (s := S1x1x1024x1024) ![0, 0, 128, 0] S1x1x1x1024.size inbB))))) x
      = edgeRulesLeftFirst (stepOf x0 x1) (0 + 1 * (x 2).val) (0 + 1 * (x 3).val) := by
  have hx2 : (x 2).val < 128 := (x 2).isLt
  have hx3 : (x 3).val < 1024 := (x 3).isLt
  rw [toBlock_apply, topFix_apply,
    strip_apply _ _ _ _ (bordered (plane (n := 1) x1 (0 : Fin 1))) (plane (n := 1) x0 (0 : Fin 1)) 0
      (fun p q => (rows_read x1 0 inbM p q).trans (bordered_eq _ _ _ _ _ rfl rfl).symm)
      (fun q => (zero_word).trans (bordered_row0 _ _).symm)
      (fun q => (row_read x1 128 inbB q).trans (bordered_eq _ _ _ _ _ rfl rfl).symm)
      (fun p q => rows_read x0 0 inbM p q)
      (fun r => bordered_col0 _ r) (fun r => bordered_col1025 x1 _ r),
    edgeRulesLeftFirst_top _ _ _ (by omega)]
  exact congrArg₂ _ (by show 0 + (if (x 2).val = 0 then 1 else (x 2).val) = (if 0 + 1 * (x 2).val = 0 then 1 else 0 + 1 * (x 2).val); split_ifs <;> omega)
    (by show (x 3).val = 0 + 1 * (x 3).val; omega)

/-- The last strip: rows 896 .. 1023, row 895 above, zeros below, and row 1023 copying row 1022. -/
theorem last_piece
    (inbM : ∀ a, (![0, 0, 896, 0] : Fin 4 → ℕ) a + S1x1x128x1024.size a ≤ S1x1x1024x1024.size a)
    (inbT : ∀ a, (![0, 0, 895, 0] : Fin 4 → ℕ) a + S1x1x1x1024.size a ≤ S1x1x1024x1024.size a) (x : S1x1x128x1024.Idx) :
    toBlock (F := Ideal) (botFix (strip
        (toRow (View.ld x1 (Rect.unit (s := S1x1x1024x1024) ![0, 0, 895, 0] S1x1x1x1024.size inbT)))
        (toRows (View.ld x1 (Rect.unit (s := S1x1x1024x1024) ![0, 0, 896, 0] S1x1x128x1024.size inbM)))
        (toRows (View.ld x0 (Rect.unit (s := S1x1x1024x1024) ![0, 0, 896, 0] S1x1x128x1024.size inbM)))
        (broadcast S1x1024 (Scalar.ofBits (F := Ideal) .f32 0x00000000#32)))) x
      = edgeRulesLeftFirst (stepOf x0 x1) (896 + 1 * (x 2).val) (0 + 1 * (x 3).val) := by
  have hx2 : (x 2).val < 128 := (x 2).isLt
  have hx3 : (x 3).val < 1024 := (x 3).isLt
  rw [toBlock_apply, botFix_apply,
    strip_apply _ _ _ _ (bordered (plane (n := 1) x1 (0 : Fin 1))) (plane (n := 1) x0 (0 : Fin 1)) 896
      (fun p q => (rows_read x1 896 inbM p q).trans (bordered_eq _ _ _ _ _ rfl rfl).symm)
      (fun q => (row_read x1 895 inbT q).trans (bordered_eq _ _ _ _ _ rfl rfl).symm)
      (fun q => (zero_word).trans (bordered_row1025 x1 _ _).symm)
      (fun p q => rows_read x0 896 inbM p q)
      (fun r => bordered_col0 _ r) (fun r => bordered_col1025 x1 _ r),
    edgeRulesLeftFirst_bot _ _ _ (by omega)]
  exact congrArg₂ _ (by show 896 + (if (x 2).val = 127 then 126 else (x 2).val) = (if 896 + 1 * (x 2).val = 1023 then 1022 else 896 + 1 * (x 2).val); split_ifs <;> omega)
    (by show (x 3).val = 0 + 1 * (x 3).val; omega)

/-- The eight stores leave the step with the boundary rules (column copy first) at every entry of the block. -/
theorem out_eq : out0_2 (F := Ideal) x0 x1 = blockResult x0 x1 := by
  funext y
  unfold out0_2
  refine View.canon_apply_of_pieces (Val := Elt Ideal) (blockResult x0 x1) _ ?_ y (cover0_2 _ _ _ _ _ _ _ _ y)
  intro pc hpc x
  rcases List.mem_cons.mp hpc with rfl | hpc
  · show k0_pay1 (k0_pay19 (k0_pay2 (F := Ideal)) (View.ld x1 r0_20) (View.ld x0 r0_20) (View.ld x1 r0_21)) k0_pay20 (Scalar.ofBits .f32 0x00000000#32) x = blockResult x0 x1 (r0_20.idx x)
    rw [pay_last]
    exact last_piece x0 x1 _ _ x
  rcases List.mem_cons.mp hpc with rfl | hpc
  · show k0_pay18 (k0_pay17 (View.ld x1 r0_17) (View.ld x0 r0_17) (View.ld x1 r0_18) (View.ld x1 r0_19)) (iota .tc S128x1024 32 [1] iota_S128x1024_d1_w32) x = blockResult x0 x1 (r0_17.idx x)
    rw [pay_strip6]
    exact mid_piece x0 x1 768 767 896 _ _ _ (by omega) (by omega) (by omega) (by omega) x
  rcases List.mem_cons.mp hpc with rfl | hpc
  · show k0_pay16 (k0_pay14 (View.ld x1 r0_14) (View.ld x0 r0_14) (View.ld x1 r0_15) (View.ld x1 r0_16)) (iota .tc S128x1024 32 [1] iota_S128x1024_d1_w32) k0_pay15 x = blockResult x0 x1 (r0_14.idx x)
    rw [pay_strip5]
    exact mid_piece x0 x1 640 639 768 _ _ _ (by omega) (by omega) (by omega) (by omega) x
  rcases List.mem_cons.mp hpc with rfl | hpc
  · show k0_pay13 (k0_pay11 (View.ld x1 r0_11) (View.ld x0 r0_11) (View.ld x1 r0_12) (View.ld x1 r0_13)) k0_pay12 (Scalar.ofBits .f32 0x00000000#32) x = blockResult x0 x1 (r0_11.idx x)
    rw [pay_strip4]
    exact mid_piece x0 x1 512 511 640 _ _ _ (by omega) (by omega) (by omega) (by omega) x
  rcases List.mem_cons.mp hpc with rfl | hpc
  · show k0_pay10 (k0_pay9 (View.ld x1 r0_8) (View.ld x0 r0_8) (View.ld x1 r0_9) (View.ld x1 r0_10)) x = blockResult x0 x1 (r0_8.idx x)
    rw [pay_strip3]
    exact mid_piece x0 x1 384 383 512 _ _ _ (by omega) (by omega) (by omega) (by omega) x
  rcases List.mem_cons.mp hpc with rfl | hpc
  · show k0_pay8 (k0_pay7 (View.ld x1 r0_5) (View.ld x0 r0_5) (View.ld x1 r0_6) (View.ld x1 r0_7)) x = blockResult x0 x1 (r0_5.idx x)
    rw [pay_strip2]
    exact mid_piece x0 x1 256 255 384 _ _ _ (by omega) (by omega) (by omega) (by omega) x
  rcases List.mem_cons.mp hpc with rfl | hpc
  · show k0_pay6 (k0_pay5 (View.ld x1 r0_2) (View.ld x0 r0_2) (View.ld x1 r0_3) (View.ld x1 r0_4)) x = blockResult x0 x1 (r0_2.idx x)
    rw [pay_strip1]
    exact mid_piece x0 x1 128 127 256 _ _ _ (by omega) (by omega) (by omega) (by omega) x
  rcases List.mem_cons.mp hpc with rfl | hpc
  · show k0_pay4 (k0_pay3 (View.ld x1 r0_0) (View.ld x0 r0_0) (View.ld x1 r0_1)) x = blockResult x0 x1 (r0_0.idx x)
    rw [pay_first]
    exact first_piece x0 x1 _ _ x
  nomatch hpc

end Cert.KernelIdeal.Block

end
-- ==== Proof.Whole.lean ====
/-
  From the kernel's blocks to its output array.

  The grid has one point per plane: point t stages plane t of the source term and of the field, and writes plane t of the
  output.  The body turns the two staged planes into the step followed by the boundary rules (column copy first), so what
  point t writes back is plane t of the specification's array; the 32 planes cover the array, so the array after the run
  is the specification's array of the two arguments.
-/
import proofs.«177645_j22479858827489_2_alg».proof.Proof.Block
import proofs.«177645_j22479858827489_2_alg».proof.Proof.Gen.KernelIdeal.Value

set_option maxRecDepth 16384

noncomputable section

namespace Cert.KernelIdeal.Whole

open Cert.KernelIdeal Cert.KernelIdeal.Gen Cert.KernelIdeal.Block Idealize.ShloMosaic Idealize.ShloMosaic.TcCoe
  Idealize.ShloMosaic.ValueIdx Idealize.SL.Sem Cert.Jacobi
open Idealize.ShloMosaic.Pipeline (Dat)

variable (m : (ℓ : Loc nD τ sig) → Buf (Elt Ideal) ℓ) (ρ : Dev nD → PrngReg)

/-- Every window's block index at point t is (t, 0, 0, 0): decided over the 32 points. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

/-- The source term's staged block at point t, as a plane, is plane t of the source array. -/
theorem plane_blk0 (c : Dev nD) (t : Fin cfg0.N) (b : Fin 32) (hb : b.val = t.val) :
    plane (n := 1) (iblk m c 0 t) (0 : Fin 1) = plane (n := 32) (V m c main_arg0) b := by
  obtain ⟨⟨e0, e1, e2, e3⟩, -, -⟩ := idx_facts t
  funext r q
  unfold plane
  by_cases h : r < 1024 ∧ q < 1024
  · rw [dif_pos h, dif_pos h]
    show V m c main_arg0 (((cfg0.win 0).blk t).view.emb (ix4 (0 : Fin 1) (0 : Fin 1) (⟨r, h.1⟩ : Fin 1024) (⟨q, h.2⟩ : Fin 1024))) = _
    congr 1
    funext a
    match a with
    | ⟨0, _⟩ => exact Fin.ext (by show win0_0.index t (0 : Fin 4) * 1 + 1 * 0 = b.val; omega)
    | ⟨1, _⟩ => exact Fin.ext (by show win0_0.index t (1 : Fin 4) * 1 + 1 * 0 = 0; omega)
    | ⟨2, _⟩ => exact Fin.ext (by show win0_0.index t (2 : Fin 4) * 1024 + 1 * r = r; omega)
    | ⟨3, _⟩ => exact Fin.ext (by show win0_0.index t (3 : Fin 4) * 1024 + 1 * q = q; omega)
  · rw [dif_neg h, dif_neg h]

/-- The field's staged block at point t, as a plane, is plane t of the field. -/
theorem plane_blk1 (c : Dev nD) (t : Fin cfg0.N) (b : Fin 32) (hb : b.val = t.val) :
    plane (n := 1) (iblk m c 1 t) (0 : Fin 1) = plane (n := 32) (V m c main_arg3) b := by
  obtain ⟨-, ⟨e0, e1, e2, e3⟩, -⟩ := idx_facts t
  funext r q
  unfold plane
  by_cases h : r < 1024 ∧ q < 1024
  · rw [dif_pos h, dif_pos h]
    show V m c main_arg3 (((cfg0.win 1).blk t).view.emb (ix4 (0 : Fin 1) (0 : Fin 1) (⟨r, h.1⟩ : Fin 1024) (⟨q, h.2⟩ : Fin 1024))) = _
    congr 1
    funext a
    match a with
    | ⟨0, _⟩ => exact Fin.ext (by show win0_1.index t (0 : Fin 4) * 1 + 1 * 0 = b.val; omega)
    | ⟨1, _⟩ => exact Fin.ext (by show win0_1.index t (1 : Fin 4) * 1 + 1 * 0 = 0; omega)
    | ⟨2, _⟩ => exact Fin.ext (by show win0_1.index t (2 : Fin 4) * 1024 + 1 * r = r; omega)
    | ⟨3, _⟩ => exact Fin.ext (by show win0_1.index t (3 : Fin 4) * 1024 + 1 * q = q; omega)
  · rw [dif_neg h, dif_neg h]

/-- What point t writes back is plane t of the specification's array of the two argument arrays. -/
theorem flushed_eq (c : Dev nD) (t : Fin cfg0.N) :
    (dats m 0 c).flushed 2 t
      = ((cfg0.win 2).blk t).view.read (Elt Ideal) (result quarter scale (V m c main_arg0) (V m c main_arg3)) := by
  rw [Cert.KernelIdeal.Value.flushed2, out_eq]
  obtain ⟨-, -, ⟨e0, e1, e2, e3⟩⟩ := idx_facts t
  funext j
  have hj0 : (j 0).val < 1 := (j 0).isLt
  show blockResult (iblk m c 0 t) (iblk m c 1 t) j
    = result quarter scale (V m c main_arg0) (V m c main_arg3) (((cfg0.win 2).blk t).view.emb j)
  have hb : ((((cfg0.win 2).blk t).view.emb j) 0).val = t.val := by
    show win0_2.index t (0 : Fin 4) * 1 + 1 * (j 0).val = t.val; omega
  have h2 : ((((cfg0.win 2).blk t).view.emb j) 2).val = (j 2).val := by
    show win0_2.index t (2 : Fin 4) * 1024 + 1 * (j 2).val = (j 2).val; omega
  have h3 : ((((cfg0.win 2).blk t).view.emb j) 3).val = (j 3).val := by
    show win0_2.index t (3 : Fin 4) * 1024 + 1 * (j 3).val = (j 3).val; omega
  unfold blockResult result Block.stepOf
  rw [order_eq, h2, h3, plane_blk0 m c t _ hb, plane_blk1 m c t _ hb]

/-- Every entry of the output array lies in the block of the point of its plane. -/
theorem cover (i : S32x1x1024x1024.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 1024 := (i 2).isLt
  have hi3 : (i 3).val < 1024 := (i 3).isLt
  refine ⟨(⟨(i 0).val, hi0⟩ : Fin 32), flush0_2 _, ?_⟩
  obtain ⟨-, -, ⟨e0, e1, e2, e3⟩⟩ := idx_facts (⟨(i 0).val, hi0⟩ : Fin 32)
  have e0' : win0_2.index (⟨(i 0).val, hi0⟩ : Fin 32) (0 : Fin 4) = (i 0).val := e0
  show i ∈ ((View.whole main_v0).slice (win0_2.rect (⟨(i 0).val, hi0⟩ : Fin 32))).set
  rw [View.set_slice_whole, Rect.mem_set_unit]
  intro a
  match a with
  | ⟨0, _⟩ => show win0_2.index (⟨(i 0).val, hi0⟩ : Fin 32) (0 : Fin 4) * 1 ≤ (i 0).val ∧ (i 0).val < win0_2.index (⟨(i 0).val, hi0⟩ : Fin 32) (0 : Fin 4) * 1 + 1; omega
  | ⟨1, _⟩ => show win0_2.index (⟨(i 0).val, hi0⟩ : Fin 32) (1 : Fin 4) * 1 ≤ (i 1).val ∧ (i 1).val < win0_2.index (⟨(i 0).val, hi0⟩ : Fin 32) (1 : Fin 4) * 1 + 1; omega
  | ⟨2, _⟩ => show win0_2.index (⟨(i 0).val, hi0⟩ : Fin 32) (2 : Fin 4) * 1024 ≤ (i 2).val ∧ (i 2).val < win0_2.index (⟨(i 0).val, hi0⟩ : Fin 32) (2 : Fin 4) * 1024 + 1024; omega
  | ⟨3, _⟩ => show win0_2.index (⟨(i 0).val, hi0⟩ : Fin 32) (3 : Fin 4) * 1024 ≤ (i 3).val ∧ (i 3).val < win0_2.index (⟨(i 0).val, hi0⟩ : Fin 32) (3 : Fin 4) * 1024 + 1024; omega

/-- The output array after the run is the specification's array of the source term and the field as launched. -/
theorem final (c : Dev nD) :
    (dats m 0 c).arrAt 2 cfg0.N
      = result quarter scale (m ((c : Thread nD τ).loc main_arg0)) (m ((c : Thread nD τ).loc main_arg3)) :=
  (dats m 0 c).arrAt_eq_of_cover 2 (result quarter scale (V m c main_arg0) (V m c main_arg3))
    (fun t _ => flushed_eq m c t) cover

/-- The kernel's run: the result is the specification's array, the arguments are unchanged. -/
theorem run : θ_run defs (onTc (τ := τ) (main (F := Ideal))) ⟨m, fun _ => 0, ρ⟩ fun r => ∀ c : Dev nD,
      r.2.mem ((c : Thread nD τ).loc main_v0)
        = result quarter scale (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.LibScatterSet.lean ====
/-
  A host scatter whose body returns the update ("set"), read at one index of the operand.
  The scatter is a left fold over the update indices, each step overwriting the element its update lands on.  Read at a
  fixed operand index i, the fold ends at a value a as soon as every update landing on i carries a, and either the operand
  holds a at i or some update lands on i.  In particular: where no update lands the operand's element survives, and where
  the landing updates agree the result is their common value.
-/
import Idealize.ShloMosaic.PureOps.ShapeOps
import Idealize.ShloMosaic.Lib.ValueIdx

namespace Cert.LibScatterSet

open Idealize.ShloMosaic

/-- A left fold of steps that, read at `i`, overwrite with `v n` exactly when `g n = some i`: it ends at `a` when every
    hit carries `a` and the start holds `a` at `i` or the list has a hit. -/
theorem foldl_set_apply {ι I α : Type} (step : (I → α) → ι → (I → α)) (g : ι → Option I) (v : ι → α) (i : I)
    (hhit : ∀ r n, g n = some i → step r n i = v n) (hmiss : ∀ r n, g n ≠ some i → step r n i = r i)
    (a : α) (l : List ι) (x : I → α) (hv : ∀ n ∈ l, g n = some i → v n = a)
    (hx : x i = a ∨ ∃ n ∈ l, g n = some i) : (l.foldl step x) i = a := by
  induction l generalizing x with
  | nil =>
    rcases hx with h | ⟨n, hn, _⟩
    · exact h
    · cases hn
  | cons n l ih =>
    rw [List.foldl_cons]
    refine ih (step x n) (fun n' hn' => hv n' (List.mem_cons_of_mem _ hn')) ?_
    by_cases hg : g n = some i
    · left; rw [hhit x n hg]; exact hv n List.mem_cons_self hg
    · rcases hx with h | ⟨n', hn', hg'⟩
      · left; rw [hmiss x n hg]; exact h
      · rcases List.mem_cons.1 hn' with rfl | h'
        · exact absurd hg' hg
        · right; exact ⟨n', h', hg'⟩

/-- A "set" scatter at operand index `i` is `a` when every update landing on `i` carries `a`, and the operand holds
    `a` there or some update lands there. -/
theorem scatter_set_apply {α : Type} {s si u : Shape} {w : ℕ} (d : ScatterDims s si u) (x : s.Idx → α) (idx : IVec si w)
    (upd : u.Idx → α) (i : s.Idx) (a : α) (hv : ∀ j, d.resultIdx? j idx = some i → upd j = a)
    (hx : x i = a ∨ ∃ j, d.resultIdx? j idx = some i) :
    Host.scatter d (fun _ b => b) x idx upd i = a := by
  unfold Host.scatter
  refine foldl_set_apply _ (fun n => d.resultIdx? (u.rowMajor.symm n) idx) (fun n => upd (u.rowMajor.symm n)) i ?_ ?_ a _ x
    (fun n _ => hv _) ?_
  · intro r n hg
    simp only [hg, if_true]
  · intro r n hg
    cases h : d.resultIdx? (u.rowMajor.symm n) idx with
    | none => rfl
    | some i0 =>
      have hne : i ≠ i0 := fun e => hg (by rw [h, e])
      simp only [if_neg hne]
  · rcases hx with h | ⟨j, hj⟩
    · exact Or.inl h
    · exact Or.inr ⟨u.rowMajor j, List.mem_finRange _, by rw [Equiv.symm_apply_apply]; exact hj⟩

end Cert.LibScatterSet
-- ==== Proof.LibScatterSlab.lean ====
/-
  A host "set" scatter that overwrites one whole slab of a rank-4 array: x.at[:, :, :, n].set(upd) (axis 3) and
  x.at[:, :, n, :].set(upd) (axis 2), the scatter written with ONE scatter index (indices of shape [1]), the three other
  axes as update window axes and the slab's axis inserted.  Read at an entry: the update at the entry's other three
  coordinates when the entry lies in the slab, the operand's own entry elsewhere.  Any sizes, any element type.
-/
import proofs.«177645_j22479858827489_2_alg».proof.Proof.LibScatterSet
import Idealize.ShloMosaic.PureOps.ShapeOps
import Idealize.ShloMosaic.Lib.ValueIdx

namespace Cert.LibScatterSlab

open Idealize.ShloMosaic Idealize.ShloMosaic.ValueIdx

variable {a b c e : ℕ}

/-- With one scatter index n on axis 3 and the three other axes as window axes, update (j0, j1, j2) lands on the
    operand entry whose axis-3 coordinate is n and whose other coordinates are j's. -/
theorem resultIdx_axis3 (d : ScatterDims (⟨4, ![a, b, c, e]⟩ : Shape) (⟨1, ![1]⟩ : Shape) (⟨3, ![a, b, c]⟩ : Shape))
    (huw : d.updateWindowDims = [0, 1, 2]) (hiw : d.insertedWindowDims = [3]) (hsd : d.scatterDimsToOperandDims = [3])
    (hiv : d.indexVectorDim = 0) (idx : IVec (⟨1, ![1]⟩ : Shape) 32) (n : Fin e) (hidx : ∀ k, (idx k).toInt = (n.val : ℤ))
    (j : (⟨3, ![a, b, c]⟩ : Shape).Idx) :
    d.resultIdx? j idx = some (ix4 (j 0) (j 1) (j 2) n) := by
  obtain ⟨uw, iw, sd, iv, wf⟩ := d
  simp only at huw hiw hsd hiv
  subst huw hiw hsd hiv
  have n0 : (0 : Fin 4) ∉ ([3] : List (Fin 4)) := by decide
  have k0 : (0 : Fin 4) ∈ (List.finRange 4).filter (· ∉ ([3] : List (Fin 4))) := by decide
  have n1 : (1 : Fin 4) ∉ ([3] : List (Fin 4)) := by decide
  have k1 : (1 : Fin 4) ∈ (List.finRange 4).filter (· ∉ ([3] : List (Fin 4))) := by decide
  have n2 : (2 : Fin 4) ∉ ([3] : List (Fin 4)) := by decide
  have k2 : (2 : Fin 4) ∈ (List.finRange 4).filter (· ∉ ([3] : List (Fin 4))) := by decide
  have n3 : (3 : Fin 4) ∈ ([3] : List (Fin 4)) := by decide
  have k3 : (3 : Fin 4) ∉ (List.finRange 4).filter (· ∉ ([3] : List (Fin 4))) := by decide
  have hall : ∀ x : Fin 4, (⟨[0, 1, 2], [3], [3], 0, wf⟩ : ScatterDims (⟨4, ![a, b, c, e]⟩ : Shape) (⟨1, ![1]⟩ : Shape) (⟨3, ![a, b, c]⟩ : Shape)).start j idx x
      + ((⟨[0, 1, 2], [3], [3], 0, wf⟩ : ScatterDims (⟨4, ![a, b, c, e]⟩ : Shape) (⟨1, ![1]⟩ : Shape) (⟨3, ![a, b, c]⟩ : Shape)).window j x : ℤ)
      = ((ix4 (j 0) (j 1) (j 2) n x).val : ℤ) := fun x =>
    match x with
    | ⟨0, _⟩ => by
      unfold ScatterDims.start ScatterDims.window
      split_ifs with h1 h2 h2
      · exact absurd h1 n0
      · exact absurd h1 n0
      · show (0 : ℤ) + ((j 0).val : ℤ) = ((j 0).val : ℤ); exact zero_add _
      · exact absurd k0 h2
    | ⟨1, _⟩ => by
      unfold ScatterDims.start ScatterDims.window
      split_ifs with h1 h2 h2
      · exact absurd h1 n1
      · exact absurd h1 n1
      · show (0 : ℤ) + ((j 1).val : ℤ) = ((j 1).val : ℤ); exact zero_add _
      · exact absurd k1 h2
    | ⟨2, _⟩ => by
      unfold ScatterDims.start ScatterDims.window
      split_ifs with h1 h2 h2
      · exact absurd h1 n2
      · exact absurd h1 n2
      · show (0 : ℤ) + ((j 2).val : ℤ) = ((j 2).val : ℤ); exact zero_add _
      · exact absurd k2 h2
    | ⟨3, _⟩ => by
      unfold ScatterDims.start ScatterDims.window
      split_ifs with h1 h2 h2
      · exact absurd h2 k3
      · rw [hidx]; show (n.val : ℤ) + ((0 : ℕ) : ℤ) = (n.val : ℤ); simp
      · exact absurd n3 h1
      · exact absurd n3 h1
  unfold ScatterDims.resultIdx?
  rw [dif_pos (fun x => by rw [hall x]; exact ⟨Int.natCast_nonneg _, by exact_mod_cast (ix4 (j 0) (j 1) (j 2) n x).isLt⟩)]
  congr 1
  funext x
  apply Fin.ext
  show (_ + _ : ℤ).toNat = _
  rw [hall x]; simp

/-- With one scatter index n on axis 2 and the three other axes as window axes, update (j0, j1, j2) lands on the
    operand entry whose axis-2 coordinate is n and whose other coordinates are j's. -/
theorem resultIdx_axis2 (d : ScatterDims (⟨4, ![a, b, c, e]⟩ : Shape) (⟨1, ![1]⟩ : Shape) (⟨3, ![a, b, e]⟩ : Shape))
    (huw : d.updateWindowDims = [0, 1, 2]) (hiw : d.insertedWindowDims = [2]) (hsd : d.scatterDimsToOperandDims = [2])
    (hiv : d.indexVectorDim = 0) (idx : IVec (⟨1, ![1]⟩ : Shape) 32) (n : Fin c) (hidx : ∀ k, (idx k).toInt = (n.val : ℤ))
    (j : (⟨3, ![a, b, e]⟩ : Shape).Idx) :
    d.resultIdx? j idx = some (ix4 (j 0) (j 1) n (j 2)) := by
  obtain ⟨uw, iw, sd, iv, wf⟩ := d
  simp only at huw hiw hsd hiv
  subst huw hiw hsd hiv
  have n0 : (0 : Fin 4) ∉ ([2] : List (Fin 4)) := by decide
  have k0 : (0 : Fin 4) ∈ (List.finRange 4).filter (· ∉ ([2] : List (Fin 4))) := by decide
  have n1 : (1 : Fin 4) ∉ ([2] : List (Fin 4)) := by decide
  have k1 : (1 : Fin 4) ∈ (List.finRange 4).filter (· ∉ ([2] : List (Fin 4))) := by decide
  have n2 : (2 : Fin 4) ∈ ([2] : List (Fin 4)) := by decide
  have k2 : (2 : Fin 4) ∉ (List.finRange 4).filter (· ∉ ([2] : List (Fin 4))) := by decide
  have n3 : (3 : Fin 4) ∉ ([2] : List (Fin 4)) := by decide
  have k3 : (3 : Fin 4) ∈ (List.finRange 4).filter (· ∉ ([2] : List (Fin 4))) := by decide
  have hall : ∀ x : Fin 4, (⟨[0, 1, 2], [2], [2], 0, wf⟩ : ScatterDims (⟨4, ![a, b, c, e]⟩ : Shape) (⟨1, ![1]⟩ : Shape) (⟨3, ![a, b, e]⟩ : Shape)).start j idx x
      + ((⟨[0, 1, 2], [2], [2], 0, wf⟩ : ScatterDims (⟨4, ![a, b, c, e]⟩ : Shape) (⟨1, ![1]⟩ : Shape) (⟨3, ![a, b, e]⟩ : Shape)).window j x : ℤ)
      = ((ix4 (j 0) (j 1) n (j 2) x).val : ℤ) := fun x =>
    match x with
    | ⟨0, _⟩ => by
      unfold ScatterDims.start ScatterDims.window
      split_ifs with h1 h2 h2
      · exact absurd h1 n0
      · exact absurd h1 n0
      · show (0 : ℤ) + ((j 0).val : ℤ) = ((j 0).val : ℤ); exact zero_add _
      · exact absurd k0 h2
    | ⟨1, _⟩ => by
      unfold ScatterDims.start ScatterDims.window
      split_ifs with h1 h2 h2
      · exact absurd h1 n1
      · exact absurd h1 n1
      · show (0 : ℤ) + ((j 1).val : ℤ) = ((j 1).val : ℤ); exact zero_add _
      · exact absurd k1 h2
    | ⟨2, _⟩ => by
      unfold ScatterDims.start ScatterDims.window
      split_ifs with h1 h2 h2
      · exact absurd h2 k2
      · rw [hidx]; show (n.val : ℤ) + ((0 : ℕ) : ℤ) = (n.val : ℤ); simp
      · exact absurd n2 h1
      · exact absurd n2 h1
    | ⟨3, _⟩ => by
      unfold ScatterDims.start ScatterDims.window
      split_ifs with h1 h2 h2
      · exact absurd h1 n3
      · exact absurd h1 n3
      · show (0 : ℤ) + ((j 2).val : ℤ) = ((j 2).val : ℤ); exact zero_add _
      · exact absurd k3 h2
  unfold ScatterDims.resultIdx?
  rw [dif_pos (fun x => by rw [hall x]; exact ⟨Int.natCast_nonneg _, by exact_mod_cast (ix4 (j 0) (j 1) n (j 2) x).isLt⟩)]
  congr 1
  funext x
  apply Fin.ext
  show (_ + _ : ℤ).toNat = _
  rw [hall x]; simp

/-- x.at[..., n on axis 3, ...].set(upd), read at entry i: upd at i's other three coordinates when i's axis-3 coordinate
    is n, and x's own entry elsewhere. -/
theorem set_axis3_apply {α : Type} (d : ScatterDims (⟨4, ![a, b, c, e]⟩ : Shape) (⟨1, ![1]⟩ : Shape) (⟨3, ![a, b, c]⟩ : Shape))
    (huw : d.updateWindowDims = [0, 1, 2]) (hiw : d.insertedWindowDims = [3]) (hsd : d.scatterDimsToOperandDims = [3])
    (hiv : d.indexVectorDim = 0) (x : (⟨4, ![a, b, c, e]⟩ : Shape).Idx → α) (idx : IVec (⟨1, ![1]⟩ : Shape) 32) (n : Fin e)
    (hidx : ∀ k, (idx k).toInt = (n.val : ℤ)) (upd : (⟨3, ![a, b, c]⟩ : Shape).Idx → α) (i : (⟨4, ![a, b, c, e]⟩ : Shape).Idx) :
    Host.scatter d (fun _ b => b) x idx upd i = if (i 3).val = n.val then upd (ix3 (i 0) (i 1) (i 2)) else x i := by
  have hres := resultIdx_axis3 d huw hiw hsd hiv idx n hidx
  split
  · rename_i hi
    refine Cert.LibScatterSet.scatter_set_apply d x idx upd i _ (fun j hj => ?_) (Or.inr ⟨ix3 (i 0) (i 1) (i 2), ?_⟩)
    · rw [hres j] at hj
      have e := Option.some.inj hj
      have e0 : j 0 = i 0 := congrFun e 0
      have e1 : j 1 = i 1 := congrFun e 1
      have e2 : j 2 = i 2 := congrFun e 2
      have ej : j = ix3 (i 0) (i 1) (i 2) := by
        funext y
        match y with
        | ⟨0, _⟩ => exact e0
        | ⟨1, _⟩ => exact e1
        | ⟨2, _⟩ => exact e2
      exact congrArg upd ej
    · rw [hres]
      congr 1
      funext y
      match y with
      | ⟨0, _⟩ => rfl
      | ⟨1, _⟩ => rfl
      | ⟨2, _⟩ => rfl
      | ⟨3, _⟩ => exact Fin.ext hi.symm
  · rename_i hi
    refine Cert.LibScatterSet.scatter_set_apply d x idx upd i _ (fun j hj => ?_) (Or.inl rfl)
    rw [hres j] at hj
    have e := Option.some.inj hj
    have e3 : n = i 3 := congrFun e 3
    exact absurd (by rw [← e3]) hi

/-- x.at[..., n on axis 2, ...].set(upd), read at entry i: upd at i's other three coordinates when i's axis-2 coordinate
    is n, and x's own entry elsewhere. -/
theorem set_axis2_apply {α : Type} (d : ScatterDims (⟨4, ![a, b, c, e]⟩ : Shape) (⟨1, ![1]⟩ : Shape) (⟨3, ![a, b, e]⟩ : Shape))
    (huw : d.updateWindowDims = [0, 1, 2]) (hiw : d.insertedWindowDims = [2]) (hsd : d.scatterDimsToOperandDims = [2])
    (hiv : d.indexVectorDim = 0) (x : (⟨4, ![a, b, c, e]⟩ : Shape).Idx → α) (idx : IVec (⟨1, ![1]⟩ : Shape) 32) (n : Fin c)
    (hidx : ∀ k, (idx k).toInt = (n.val : ℤ)) (upd : (⟨3, ![a, b, e]⟩ : Shape).Idx → α) (i : (⟨4, ![a, b, c, e]⟩ : Shape).Idx) :
    Host.scatter d (fun _ b => b) x idx upd i = if (i 2).val = n.val then upd (ix3 (i 0) (i 1) (i 3)) else x i := by
  have hres := resultIdx_axis2 d huw hiw hsd hiv idx n hidx
  split
  · rename_i hi
    refine Cert.LibScatterSet.scatter_set_apply d x idx upd i _ (fun j hj => ?_) (Or.inr ⟨ix3 (i 0) (i 1) (i 3), ?_⟩)
    · rw [hres j] at hj
      have e := Option.some.inj hj
      have e0 : j 0 = i 0 := congrFun e 0
      have e1 : j 1 = i 1 := congrFun e 1
      have e2 : j 2 = i 3 := congrFun e 3
      have ej : j = ix3 (i 0) (i 1) (i 3) := by
        funext y
        match y with
        | ⟨0, _⟩ => exact e0
        | ⟨1, _⟩ => exact e1
        | ⟨2, _⟩ => exact e2
      exact congrArg upd ej
    · rw [hres]
      congr 1
      funext y
      match y with
      | ⟨0, _⟩ => rfl
      | ⟨1, _⟩ => rfl
      | ⟨3, _⟩ => rfl
      | ⟨2, _⟩ => exact Fin.ext hi.symm
  · rename_i hi
    refine Cert.LibScatterSet.scatter_set_apply d x idx upd i _ (fun j hj => ?_) (Or.inl rfl)
    rw [hres j] at hj
    have e := Option.some.inj hj
    have e3 : n = i 2 := congrFun e 2
    exact absurd (by rw [← e3]) hi

end Cert.LibScatterSlab
-- ==== Proof.RefValue.lean ====
/-
  The reference program's result, entry by entry.

  The reference pads the field u with a border of zeros and adds four windows of the padded array: the windows at offsets
  (0,1), (2,1), (1,0), (1,2) are the up, down, left and right neighbours.  A quarter of the sum less the scaled source term
  is the Jacobi step.  Four overwrites follow, each of one whole slab of the array: the last column with zeros, row 0
  with row 1, column 0 with column 1, the last row with the row above it.  Read at an entry, each is an "if" on one
  coordinate, and the composition is the boundary rule of the specification.
-/
import proofs.«177645_j22479858827489_2_alg».proof.Proof.Gen.ReferenceIdeal.Read
import proofs.«177645_j22479858827489_2_alg».proof.Proof.Stencil
import proofs.«177645_j22479858827489_2_alg».proof.Proof.LibScatterSlab
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Jacobi

/-- An array of the stack's shape given plane by plane over natural coordinates. -/
def arr (W : Fin 32 → ℕ → ℕ → EReal) : S32x1x1024x1024.Idx → EReal := fun i => W (i 0) (i 2).val (i 3).val

/-- Such an array read at an index whose coordinates are known. -/
theorem arr_at (W : Fin 32 → ℕ → ℕ → EReal) (k : S32x1x1024x1024.Idx) (b : Fin 32) (r c : ℕ)
    (h0 : (k 0).val = b.val) (h2 : (k 2).val = r) (h3 : (k 3).val = c) : arr W k = W b r c := by
  unfold arr
  rw [show k 0 = b from Fin.ext h0, h2, h3]

variable (x0 x3 : S32x1x1024x1024.Idx → EReal)

/-- The padded array at an entry is the bordered plane there: the field inside, the padding value zero on the border. -/
theorem padded_at (k : S32x1x1026x1026.Idx) (b : Fin 32) (r c : ℕ)
    (h0 : (k 0).val = b.val) (h2 : (k 2).val = r) (h3 : (k 3).val = c) :
    val_main_v0 (F := Ideal) x3 k = bordered (plane x3 b) r c := by
  have hk1 : (k 1).val = 0 := by have h : (k 1).val < 1 := (k 1).isLt; omega
  have hr' : r < 1026 := by rw [← h2]; exact (k 2).isLt
  have hc' : c < 1026 := by rw [← h3]; exact (k 3).isLt
  unfold val_main_v0
  by_cases h : (1 ≤ r ∧ r < 1025) ∧ (1 ≤ c ∧ c < 1025)
  · obtain ⟨⟨hr1, hr2⟩, hc1, hc2⟩ := h
    refine (pad_apply_of_inside _ _ _ x3 _ pads_S32x1x1024x1024_S32x1x1026x1026_000_000_110_110 h_S_ k
      (ix4 b (0 : Fin 1) (⟨r - 1, by omega⟩ : Fin 1024) (⟨c - 1, by omega⟩ : Fin 1024)) (fun a => match a with
      | ⟨0, _⟩ => by show (k 0).val = 0 + b.val * (0 + 1); omega
      | ⟨1, _⟩ => by show (k 1).val = 0 + 0 * (0 + 1); omega
      | ⟨2, _⟩ => by show (k 2).val = 1 + (r - 1) * (0 + 1); omega
      | ⟨3, _⟩ => by show (k 3).val = 1 + (c - 1) * (0 + 1); omega)).trans ?_
    unfold bordered plane
    rw [if_pos ⟨hr1, hc1⟩, dif_pos ⟨by omega, by omega⟩]
  · have hz : val_main_call0_v0 (F := Ideal) (Shape.Idx.first h_S_) = 0 := by
      rw [val_main_call0_v0_apply, val_main_c_apply]
      show (((0#32 : BitVec 32).toInt : ℝ) : EReal) = 0
      simp
    have hrhs : bordered (plane x3 b) r c = 0 := by
      unfold bordered plane
      split_ifs <;> first | rfl | (exfalso; omega)
    rw [hrhs, ← hz]
    by_cases hr : 1 ≤ r ∧ r < 1025
    · refine pad_apply_of_not_inside _ _ _ x3 _ pads_S32x1x1024x1024_S32x1x1026x1026_000_000_110_110 h_S_ k (3 : Fin 4) ?_
      intro hh
      have h1 : 1 ≤ (k 3).val := hh.1
      have h2' : ((k 3).val - 1) / (0 + 1) < 1024 := hh.2.2
      exact h ⟨hr, by omega, by omega⟩
    · refine pad_apply_of_not_inside _ _ _ x3 _ pads_S32x1x1024x1024_S32x1x1026x1026_000_000_110_110 h_S_ k (2 : Fin 4) ?_
      intro hh
      have h1 : 1 ≤ (k 2).val := hh.1
      have h2' : ((k 2).val - 1) / (0 + 1) < 1024 := hh.2.2
      exact hr ⟨by omega, by omega⟩

/-- The Jacobi step, plane by plane. -/
def stepOf (b : Fin 32) : ℕ → ℕ → EReal := step quarter scale (bordered (plane x3 b)) (plane x0 b)

/-- Before the overwrites the reference holds the step at every entry. -/
theorem v12_eq : val_main_v12 (F := Ideal) x0 x3 = arr (stepOf x0 x3) := by
  funext i
  have hi1 : (i 1).val = 0 := by have h : (i 1).val < 1 := (i 1).isLt; omega
  have hi2 : (i 2).val < 1024 := (i 2).isLt
  have hi3 : (i 3).val < 1024 := (i 3).isLt
  have hup : val_main_v1 (F := Ideal) x3 i = bordered (plane x3 (i 0)) (i 2).val ((i 3).val + 1) := by
    rw [val_main_v1_apply]
    exact padded_at x3 _ (i 0) _ _ rfl rfl (by show 1 + (i 3).val = (i 3).val + 1; omega)
  have hdown : val_main_v2 (F := Ideal) x3 i = bordered (plane x3 (i 0)) ((i 2).val + 2) ((i 3).val + 1) := by
    rw [val_main_v2_apply]
    exact padded_at x3 _ (i 0) _ _ rfl (by show 2 + (i 2).val = (i 2).val + 2; omega) (by show 1 + (i 3).val = (i 3).val + 1; omega)
  have hleft : val_main_v4 (F := Ideal) x3 i = bordered (plane x3 (i 0)) ((i 2).val + 1) (i 3).val := by
    rw [val_main_v4_apply]
    exact padded_at x3 _ (i 0) _ _ rfl (by show 1 + (i 2).val = (i 2).val + 1; omega) rfl
  have hright : val_main_v6 (F := Ideal) x3 i = bordered (plane x3 (i 0)) ((i 2).val + 1) ((i 3).val + 2) := by
    rw [val_main_v6_apply]
    exact padded_at x3 _ (i 0) _ _ rfl (by show 1 + (i 2).val = (i 2).val + 1; omega) (by show 2 + (i 3).val = (i 3).val + 2; omega)
  have hf : x0 i = plane x0 (i 0) (i 2).val (i 3).val := by
    unfold plane
    rw [dif_pos ⟨hi2, hi3⟩]
    congr 1
    funext a
    match a with
    | ⟨0, _⟩ => rfl
    | ⟨1, _⟩ => exact Fin.ext hi1
    | ⟨2, _⟩ => rfl
    | ⟨3, _⟩ => rfl
  rw [val_main_v12_apply, val_main_v9_apply, val_main_v8_apply, val_main_cst_apply, val_main_v7_apply, val_main_v5_apply,
    val_main_v3_apply, hup, hdown, hleft, hright, val_main_v11_apply, val_main_v10_apply, val_main_cst_0_apply, hf]
  rfl

/-- The scatter indices are the constants the program broadcasts. -/
theorem idx13 (k : S1.Idx) : (val_main_v13 (F := Ideal) k).toInt = ((⟨1023, by decide⟩ : Fin 1024).val : ℤ) := by
  rw [val_main_v13_apply, val_main_c_1_apply]; rfl
theorem idx18 (k : S1.Idx) : (val_main_v18 (F := Ideal) k).toInt = ((⟨0, by decide⟩ : Fin 1024).val : ℤ) := by
  rw [val_main_v18_apply, val_main_c_3_apply]; rfl
theorem idx22 (k : S1.Idx) : (val_main_v22 (F := Ideal) k).toInt = ((⟨0, by decide⟩ : Fin 1024).val : ℤ) := by
  rw [val_main_v22_apply, val_main_c_4_apply]; rfl
theorem idx26 (k : S1.Idx) : (val_main_v26 (F := Ideal) k).toInt = ((⟨1023, by decide⟩ : Fin 1024).val : ℤ) := by
  rw [val_main_v26_apply, val_main_c_5_apply]; rfl

/-- The last column set to zero. -/
theorem v15_eq : val_main_v15 (F := Ideal) x0 x3 = arr (fun b => zeroLastCol (stepOf x0 x3 b)) := by
  funext i
  unfold val_main_v15
  rw [v12_eq]
  refine (Cert.LibScatterSlab.set_axis3_apply scatter_S32x1x1024x1024_S1_S32x1x1024_012_3_3_0 rfl rfl rfl rfl _ _
    (⟨1023, by decide⟩ : Fin 1024) (idx13) _ i).trans ?_
  unfold arr zeroLastCol
  show (if (i 3).val = 1023 then _ else _) = if (i 3).val = 1023 then _ else _
  split
  · rw [val_main_v14_apply, val_main_cst_2_apply]; exact Ideal.ofBits_zero_f32
  · rfl

/-- Row 0 overwritten with row 1. -/
theorem v19_eq : val_main_v19 (F := Ideal) x0 x3 = arr (fun b => copyTop (zeroLastCol (stepOf x0 x3 b))) := by
  funext i
  have hi1 : (i 1).val = 0 := by have h : (i 1).val < 1 := (i 1).isLt; omega
  have hi0 : (i 0).val < 32 := (i 0).isLt
  have hi3 : (i 3).val < 1024 := (i 3).isLt
  unfold val_main_v19
  refine (Cert.LibScatterSlab.set_axis2_apply scatter_S32x1x1024x1024_S1_S32x1x1024_012_2_2_0 rfl rfl rfl rfl _ _
    (⟨0, by decide⟩ : Fin 1024) (idx18) _ i).trans ?_
  rw [val_main_v17_apply, val_main_v16_apply, v15_eq]
  unfold copyTop
  show (if (i 2).val = 0 then _ else _) = if (i 2).val = 0 then _ else _
  split
  · exact arr_at _ _ (i 0) 1 (i 3).val
      (by show (((i 0).val * 1 + (i 1).val) * 1024 + (i 3).val) / 1024 = (i 0).val; omega)
      (by show 1 + 0 = 1; rfl)
      (by show (((i 0).val * 1 + (i 1).val) * 1024 + (i 3).val) % 1024 = (i 3).val; omega)
  · rfl

/-- Column 0 overwritten with column 1. -/
theorem v23_eq : val_main_v23 (F := Ideal) x0 x3 = arr (fun b => copyLeft (copyTop (zeroLastCol (stepOf x0 x3 b)))) := by
  funext i
  have hi1 : (i 1).val = 0 := by have h : (i 1).val < 1 := (i 1).isLt; omega
  have hi0 : (i 0).val < 32 := (i 0).isLt
  have hi2 : (i 2).val < 1024 := (i 2).isLt
  unfold val_main_v23
  refine (Cert.LibScatterSlab.set_axis3_apply scatter_S32x1x1024x1024_S1_S32x1x1024_012_3_3_0 rfl rfl rfl rfl _ _
    (⟨0, by decide⟩ : Fin 1024) (idx22) _ i).trans ?_
  rw [val_main_v21_apply, val_main_v20_apply, v19_eq]
  unfold copyLeft
  show (if (i 3).val = 0 then _ else _) = if (i 3).val = 0 then _ else _
  split
  · exact arr_at _ _ (i 0) (i 2).val 1
      (by show (((i 0).val * 1 + (i 1).val) * 1024 + (i 2).val) / 1024 = (i 0).val; omega)
      (by show (((i 0).val * 1 + (i 1).val) * 1024 + (i 2).val) / 1 % 1024 = (i 2).val; omega)
      (by show 1 + 0 = 1; rfl)
  · rfl

/-- The last row overwritten with the row above it: the reference's result is the specification's array. -/
theorem v27_eq : val_main_v27 (F := Ideal) x0 x3 = result quarter scale x0 x3 := by
  funext i
  have hi1 : (i 1).val = 0 := by have h : (i 1).val < 1 := (i 1).isLt; omega
  have hi0 : (i 0).val < 32 := (i 0).isLt
  have hi3 : (i 3).val < 1024 := (i 3).isLt
  unfold val_main_v27
  refine (Cert.LibScatterSlab.set_axis2_apply scatter_S32x1x1024x1024_S1_S32x1x1024_012_2_2_0 rfl rfl rfl rfl _ _
    (⟨1023, by decide⟩ : Fin 1024) (idx26) _ i).trans ?_
  rw [val_main_v25_apply, val_main_v24_apply, v23_eq]
  unfold result edgeRules copyBottom
  show (if (i 2).val = 1023 then _ else _) = if (i 2).val = 1023 then _ else _
  split
  · exact arr_at _ _ (i 0) 1022 (i 3).val
      (by show (((i 0).val * 1 + (i 1).val) * 1024 + (i 3).val) / 1024 = (i 0).val; omega)
      (by show 1022 + 0 = 1022; rfl)
      (by show (((i 0).val * 1 + (i 1).val) * 1024 + (i 3).val) % 1024 = (i 3).val; omega)
  · rfl

end Cert.ReferenceIdeal.RefValue

end
-- ==== Proof.lean ====
/-
  One Jacobi step on 32 planes of 1024 x 1024: a kernel that sweeps each plane in eight strips of 128 rows, against the
  plain array program.

  Both programs compute, at every entry (r, c) of every plane,
      1/4 * (((up + down) + left) + right) - 2^(-22) * f(r, c),
  the four neighbours read from the field u with zeros outside the plane, and then apply four boundary rules: the last
  column is set to zero, row 0 copies row 1, column 0 copies column 1, the last row copies the row above it.  The array
  program applies the rules in that order to the whole array; the kernel copies the column inside every strip before it
  zeroes the last column, and copies the rows only in the first and the last strip.  Each rule rewrites whole rows or
  whole columns, so the two orders give the same plane (Stencil.lean, order_eq).  The sums are taken in the same order on
  both sides and the constants are the same words, so nothing about finiteness of the inputs is used.

  Stencil.lean states the common array; RefValue.lean reads the array program entry by entry (the padded field, the four
  windows, the four slab overwrites); Strip.lean, StripRead.lean and Block.lean read the kernel's body (one strip as
  vector operations, the strip over a bordered plane, the eight stored strips as one block); Whole.lean passes from the
  blocks to the output array.  The three frames are the generated ones, and there is no idealization rewrite to justify.
-/
import proofs.«177645_j22479858827489_2_alg».proof.Defs
import proofs.«177645_j22479858827489_2_alg».proof.Proof.Gen.Kernel
import proofs.«177645_j22479858827489_2_alg».proof.Proof.Gen.Kernel.Skeleton
import proofs.«177645_j22479858827489_2_alg».proof.Proof.Gen.Kernel.Launch
import proofs.«177645_j22479858827489_2_alg».proof.Proof.Gen.Kernel.Points
import proofs.«177645_j22479858827489_2_alg».proof.Proof.Gen.Kernel.Frame
import proofs.«177645_j22479858827489_2_alg».proof.Proof.Gen.KernelIdeal
import proofs.«177645_j22479858827489_2_alg».proof.Proof.Gen.KernelIdeal.Skeleton
import proofs.«177645_j22479858827489_2_alg».proof.Proof.Gen.KernelIdeal.Launch
import proofs.«177645_j22479858827489_2_alg».proof.Proof.Gen.KernelIdeal.Points
import proofs.«177645_j22479858827489_2_alg».proof.Proof.Gen.KernelIdeal.Frame
import proofs.«177645_j22479858827489_2_alg».proof.Proof.Gen.ReferenceIdeal
import proofs.«177645_j22479858827489_2_alg».proof.Proof.Gen.Pre_finite_inputs
import proofs.«177645_j22479858827489_2_alg».proof.Proof.Gen.KernelIdeal.Value
import proofs.«177645_j22479858827489_2_alg».proof.Proof.Gen.ReferenceIdeal.Run
import proofs.«177645_j22479858827489_2_alg».proof.Proof.Gen.ReferenceIdeal.Read
import proofs.«177645_j22479858827489_2_alg».proof.Proof.Whole
import proofs.«177645_j22479858827489_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the specification's array of the source term and the field: the kernel's by the blocks and
    their cover, the array program's by reading its operations one at a time; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.v27_eq, (hagree c).1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
